-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x384x16x16 : Shape := ⟨4, ![256, 384, 16, 16]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S_ : Shape := ⟨0, ![]⟩

class Facts : Prop where
  bcast_S_S256x384x16x16 : S_.BroadcastsInDim S256x384x16x16 (![] : Fin 0 → Fin S256x384x16x16.rank)
  reducesTo_S256x384x16x16_S_d0_1_2_3 : S256x384x16x16.ReducesTo [0, 1, 2, 3] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S256x384x16x16 .f32) (main_arg1 : FVec F S1152x384 .f32) (main_arg2 : FVec F S1152 .f32) (main_arg3 : FVec F S384x384 .f32) (main_arg4 : FVec F S384 .f32) : IVec S_ 1 :=
  let main_v0 : FVec F S256x384x16x16 .f32 := Host.absf main_arg0
  let main_cst : FVec F S_ .f32 := constant S_ .f32 0x7F800000#32
  let main_v1 : FVec F S256x384x16x16 .f32 := broadcastInDim S256x384x16x16 ![] bcast_S_S256x384x16x16 main_cst
  let main_v2 : IVec S256x384x16x16 1 := cmpf .olt main_v0 main_v1
  let main_c : IVec S_ 1 := constantI S_ 1 1#1
  let main_v3 : IVec S_ 1 := (fun x v => Host.reduce IntOp.andi x v reducesTo_S256x384x16x16_S_d0_1_2_3 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S256x384x16x16 : Shape := ⟨4, ![256, 384, 16, 16]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S256x384x256 : Shape := ⟨3, ![256, 384, 256]⟩
abbrev S1152x1 : Shape := ⟨2, ![1152, 1]⟩
abbrev S384x1 : Shape := ⟨2, ![384, 1]⟩
abbrev S8x384x256 : Shape := ⟨3, ![8, 384, 256]⟩
abbrev S1x384x256 : Shape := ⟨3, ![1, 384, 256]⟩
abbrev S384x256 : Shape := ⟨2, ![384, 256]⟩
abbrev S1152x256 : Shape := ⟨2, ![1152, 256]⟩
abbrev S32x256 : Shape := ⟨2, ![32, 256]⟩
abbrev S256 : Shape := ⟨1, ![256]⟩
abbrev S1x256 : Shape := ⟨2, ![1, 256]⟩
abbrev S256x256 : Shape := ⟨2, ![256, 256]⟩
abbrev S256x1 : Shape := ⟨2, ![256, 1]⟩
abbrev S256x32 : Shape := ⟨2, ![256, 32]⟩
abbrev S256x384 : Shape := ⟨2, ![256, 384]⟩

abbrev nBuf : Space → Nat
  | .hbm => 10
  | .vmem => 8
  | .smem => 0
  | _ => 0

abbrev bufTy : (tb : Table) → Fin (tcTables nBuf tb) → BufTy
  | .hbm, ⟨0, _⟩ => ⟨S256x384x16x16, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S256x384x256, .f32⟩
  | .hbm, ⟨6, _⟩ => ⟨S1152x1, .f32⟩
  | .hbm, ⟨7, _⟩ => ⟨S384x1, .f32⟩
  | .hbm, ⟨8, _⟩ => ⟨S256x384x256, .f32⟩
  | .hbm, ⟨9, _⟩ => ⟨S256x384x16x16, .f32⟩
  | .local _ .vmem, ⟨0, _⟩ => ⟨S8x384x256, .f32⟩
  | .local _ .vmem, ⟨1, _⟩ => ⟨S8x384x256, .f32⟩
  | .local _ .vmem, ⟨2, _⟩ => ⟨S1152x384, .f32⟩
  | .local _ .vmem, ⟨3, _⟩ => ⟨S1152x1, .f32⟩
  | .local _ .vmem, ⟨4, _⟩ => ⟨S384x384, .f32⟩
  | .local _ .vmem, ⟨5, _⟩ => ⟨S384x1, .f32⟩
  | .local _ .vmem, ⟨6, _⟩ => ⟨S8x384x256, .f32⟩
  | .local _ .vmem, ⟨7, _⟩ => ⟨S8x384x256, .f32⟩
  | _, _ => ⟨S256x384x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v9 : Index := Scalar.indexCast arg7
  let c0_8 : Index := 0#32
  let c0_9 : Index := 0#32
  ![v9.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x384x16x16_S256x384x256 : S256x384x16x16.ShapeCasts S256x384x256
  shapeCasts_S1152_S1152x1 : S1152.ShapeCasts S1152x1
  shapeCasts_S384_S384x1 : S384.ShapeCasts S384x1
  inb_S1152x384_S1152x384_0_0 : ∀ a, (![0, 0] : Fin 2 → Nat) a + S1152x384.size a ≤ S1152x384.size a
  h_S1152x384 : 0 < S1152x384.numel
  bitsLt_bf16_f32 : FTy.bits .bf16 < FTy.bits .f32
  inb_S384x384_S384x384_0_0 : ∀ a, (![0, 0] : Fin 2 → Nat) a + S384x384.size a ≤ S384x384.size a
  h_S384x384 : 0 < S384x384.numel
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  inb_S384x1_S384x1_0_0 : ∀ a, (![0, 0] : Fin 2 → Nat) a + S384x1.size a ≤ S384x1.size a
  h_S384x1 : 0 < S384x1.numel
  shapeCasts_S384x1_S384x1 : S384x1.ShapeCasts S384x1
  h_S1x384x256 : 0 < S1x384x256.numel
  shapeCasts_S1x384x256_S384x256 : S1x384x256.ShapeCasts S384x256
  broadcasts_S1152x1_S1152x256 : S1152x1.Broadcasts S1152x256
  slices_S1152x256_o0_0_S32x256 : S1152x256.Slices ![0, 0] S32x256
  slices_S1152x256_o384_0_S32x256 : S1152x256.Slices ![384, 0] S32x256
  slices_S1152x256_o768_0_S32x256 : S1152x256.Slices ![768, 0] S32x256
  reduces_S32x256_S256 : S32x256.Reduces [0] S256
  shapeCasts_S256_S1x256 : S256.ShapeCasts S1x256
  broadcasts_S1x256_S32x256 : S1x256.Broadcasts S32x256
  reduces_S256x256_S256 : S256x256.Reduces [1] S256
  shapeCasts_S256_S256x1 : S256.ShapeCasts S256x1
  broadcasts_S256x1_S256x256 : S256x1.Broadcasts S256x256
  slices_S1152x256_o32_0_S32x256 : S1152x256.Slices ![32, 0] S32x256
  slices_S1152x256_o416_0_S32x256 : S1152x256.Slices ![416, 0] S32x256
  slices_S1152x256_o800_0_S32x256 : S1152x256.Slices ![800, 0] S32x256
  slices_S1152x256_o64_0_S32x256 : S1152x256.Slices ![64, 0] S32x256
  slices_S1152x256_o448_0_S32x256 : S1152x256.Slices ![448, 0] S32x256
  slices_S1152x256_o832_0_S32x256 : S1152x256.Slices ![832, 0] S32x256
  slices_S1152x256_o96_0_S32x256 : S1152x256.Slices ![96, 0] S32x256
  slices_S1152x256_o480_0_S32x256 : S1152x256.Slices ![480, 0] S32x256
  slices_S1152x256_o864_0_S32x256 : S1152x256.Slices ![864, 0] S32x256
  slices_S1152x256_o128_0_S32x256 : S1152x256.Slices ![128, 0] S32x256
  slices_S1152x256_o512_0_S32x256 : S1152x256.Slices ![512, 0] S32x256
  slices_S1152x256_o896_0_S32x256 : S1152x256.Slices ![896, 0] S32x256
  slices_S1152x256_o160_0_S32x256 : S1152x256.Slices ![160, 0] S32x256
  slices_S1152x256_o544_0_S32x256 : S1152x256.Slices ![544, 0] S32x256
  slices_S1152x256_o928_0_S32x256 : S1152x256.Slices ![928, 0] S32x256
  slices_S1152x256_o192_0_S32x256 : S1152x256.Slices ![192, 0] S32x256
  slices_S1152x256_o576_0_S32x256 : S1152x256.Slices ![576, 0] S32x256
  slices_S1152x256_o960_0_S32x256 : S1152x256.Slices ![960, 0] S32x256
  slices_S1152x256_o224_0_S32x256 : S1152x256.Slices ![224, 0] S32x256
  slices_S1152x256_o608_0_S32x256 : S1152x256.Slices ![608, 0] S32x256
  slices_S1152x256_o992_0_S32x256 : S1152x256.Slices ![992, 0] S32x256
  slices_S1152x256_o256_0_S32x256 : S1152x256.Slices ![256, 0] S32x256
  slices_S1152x256_o640_0_S32x256 : S1152x256.Slices ![640, 0] S32x256
  slices_S1152x256_o1024_0_S32x256 : S1152x256.Slices ![1024, 0] S32x256
  slices_S1152x256_o288_0_S32x256 : S1152x256.Slices ![288, 0] S32x256
  slices_S1152x256_o672_0_S32x256 : S1152x256.Slices ![672, 0] S32x256
  slices_S1152x256_o1056_0_S32x256 : S1152x256.Slices ![1056, 0] S32x256
  slices_S1152x256_o320_0_S32x256 : S1152x256.Slices ![320, 0] S32x256
  slices_S1152x256_o704_0_S32x256 : S1152x256.Slices ![704, 0] S32x256
  slices_S1152x256_o1088_0_S32x256 : S1152x256.Slices ![1088, 0] S32x256
  slices_S1152x256_o352_0_S32x256 : S1152x256.Slices ![352, 0] S32x256
  slices_S1152x256_o736_0_S32x256 : S1152x256.Slices ![736, 0] S32x256
  slices_S1152x256_o1120_0_S32x256 : S1152x256.Slices ![1120, 0] S32x256
  concatenates_S256x32_S256x32_S256x32_S256x32_S256x32_S256x32_S256x32_S256x32_S256x32_S256x32_S256x32_S256x32_S256x384_d1 : Shape.Concatenates [S256x32, S256x32, S256x32, S256x32, S256x32, S256x32, S256x32, S256x32, S256x32, S256x32, S256x32, S256x32] S256x384 1
  broadcasts_S384x1_S384x256 : S384x1.Broadcasts S384x256
  shapeCasts_S384x256_S1x384x256 : S384x256.ShapeCasts S1x384x256
  shapeCasts_S256x384x256_S256x384x16x16 : S256x384x256.ShapeCasts S256x384x16x16
  dot_S1152x384_S384x256_S1152x256_1_0_0_1_n_n_wf : DotDims.WF S1152x384 S384x256 S1152x256 [1] [0] [0] [1] [] []
  dot_S32x256_S32x256_S256x256_0_0_1_1_n_n_wf : DotDims.WF S32x256 S32x256 S256x256 [0] [0] [1] [1] [] []
  dot_S256x256_S32x256_S256x32_1_1_0_0_n_n_wf : DotDims.WF S256x256 S32x256 S256x32 [1] [1] [0] [0] [] []
  dot_S384x384_S256x384_S384x256_1_1_0_0_n_n_wf : DotDims.WF S384x384 S256x384 S384x256 [1] [1] [0] [0] [] []
  hrank0 : 0 < grid0.rank
  k0_t1_ok : k0_t1_loop.OK
  k0_off1_inb : ∀ k0_t1 : Fin k0_t1_loop.trips, ∀ a, (k0_off1 k0_t1) a + S1x384x256.size a ≤ S8x384x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x384x256.size a ≤ S256x384x256.size a
  hwx0_0 : ∀ i : grid0.Coords, EltTy.bits .f32 = 32 ∨ (Rect.block (s := S256x384x256) S8x384x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x384.size a ≤ S1152x384.size a
  hwx0_1 : ∀ i : grid0.Coords, EltTy.bits .f32 = 32 ∨ (Rect.block (s := S1152x384) S1152x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152x1.size a ≤ S1152x1.size a
  hwx0_2 : ∀ i : grid0.Coords, EltTy.bits .f32 = 32 ∨ (Rect.block (s := S1152x1) S1152x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x1.size a ≤ S384x1.size a
  hwx0_4 : ∀ i : grid0.Coords, EltTy.bits .f32 = 32 ∨ (Rect.block (s := S384x1) S384x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x384x256.size a ≤ S256x384x256.size a
  hwx0_5 : ∀ i : grid0.Coords, EltTy.bits .f32 = 32 ∨ (Rect.block (s := S256x384x256) S8x384x256.size (cc0_transform_5 i) (hinb0_5 i)).WholeWords (EltTy.packing .f32)

variable [Facts₀]

def dot_S1152x384_S384x256_S1152x256_1_0_0_1_n_n : DotDims S1152x384 S384x256 S1152x256 where
  lhsContracting := [1]
  rhsContracting := [0]
  lhsNonContracting := [0]
  rhsNonContracting := [1]
  lhsBatch := []
  rhsBatch := []
  wf := dot_S1152x384_S384x256_S1152x256_1_0_0_1_n_n_wf
def dot_S32x256_S32x256_S256x256_0_0_1_1_n_n : DotDims S32x256 S32x256 S256x256 where
  lhsContracting := [0]
  rhsContracting := [0]
  lhsNonContracting := [1]
  rhsNonContracting := [1]
  lhsBatch := []
  rhsBatch := []
  wf := dot_S32x256_S32x256_S256x256_0_0_1_1_n_n_wf
def dot_S256x256_S32x256_S256x32_1_1_0_0_n_n : DotDims S256x256 S32x256 S256x32 where
  lhsContracting := [1]
  rhsContracting := [1]
  lhsNonContracting := [0]
  rhsNonContracting := [0]
  lhsBatch := []
  rhsBatch := []
  wf := dot_S256x256_S32x256_S256x32_1_1_0_0_n_n_wf
def dot_S384x384_S256x384_S384x256_1_1_0_0_n_n : DotDims S384x384 S256x384 S384x256 where
  lhsContracting := [1]
  rhsContracting := [1]
  lhsNonContracting := [0]
  rhsNonContracting := [0]
  lhsBatch := []
  rhsBatch := []
  wf := dot_S384x384_S256x384_S384x256_1_1_0_0_n_n_wf

abbrev win0_0 : Pipeline.Window sig grid0 :=
  Pipeline.Window.ofSpec (Memref.whole main_v0) S8x384x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1152x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1152x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S384x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x384x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x384x16x16 : Shape := ⟨4, ![256, 384, 16, 16]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S256x384x256 : Shape := ⟨3, ![256, 384, 256]⟩
abbrev S256x256x384 : Shape := ⟨3, ![256, 256, 384]⟩
abbrev S256x256x1152 : Shape := ⟨3, ![256, 256, 1152]⟩
abbrev S1x1x1152 : Shape := ⟨3, ![1, 1, 1152]⟩
abbrev S256x256x3x12x32 : Shape := ⟨5, ![256, 256, 3, 12, 32]⟩
abbrev S3x256x12x256x32 : Shape := ⟨5, ![3, 256, 12, 256, 32]⟩
abbrev S1x256x12x256x32 : Shape := ⟨5, ![1, 256, 12, 256, 32]⟩
abbrev S256x12x256x32 : Shape := ⟨4, ![256, 12, 256, 32]⟩
abbrev S_ : Shape := ⟨0, ![]⟩
abbrev S256x12x256 : Shape := ⟨3, ![256, 12, 256]⟩
abbrev S256x12x256x1 : Shape := ⟨4, ![256, 12, 256, 1]⟩
abbrev S256x12x256x256 : Shape := ⟨4, ![256, 12, 256, 256]⟩
abbrev S256x256x12x32 : Shape := ⟨4, ![256, 256, 12, 32]⟩
abbrev S1x1x384 : Shape := ⟨3, ![1, 1, 384]⟩

abbrev nBuf : Space → Nat
  | .hbm => 79
  | .vmem => 0
  | .smem => 0
  | _ => 0

abbrev bufTy : (tb : Table) → Fin (tcTables nBuf tb) → BufTy
  | .hbm, ⟨0, _⟩ => ⟨S256x384x16x16, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S256x384x256, .f32⟩
  | .hbm, ⟨6, _⟩ => ⟨S256x256x384, .f32⟩
  | .hbm, ⟨7, _⟩ => ⟨S256x256x1152, .f32⟩
  | .hbm, ⟨8, _⟩ => ⟨S1x1x1152, .f32⟩
  | .hbm, ⟨9, _⟩ => ⟨S256x256x1152, .f32⟩
  | .hbm, ⟨10, _⟩ => ⟨S256x256x1152, .f32⟩
  | .hbm, ⟨11, _⟩ => ⟨S256x256x3x12x32, .f32⟩
  | .hbm, ⟨12, _⟩ => ⟨S3x256x12x256x32, .f32⟩
  | .hbm, ⟨13, _⟩ => ⟨S1x256x12x256x32, .f32⟩
  | .hbm, ⟨14, _⟩ => ⟨S256x12x256x32, .f32⟩
  | .hbm, ⟨15, _⟩ => ⟨S1x256x12x256x32, .f32⟩
  | .hbm, ⟨16, _⟩ => ⟨S256x12x256x32, .f32⟩
  | .hbm, ⟨17, _⟩ => ⟨S1x256x12x256x32, .f32⟩
  | .hbm, ⟨18, _⟩ => ⟨S256x12x256x32, .f32⟩
  | .hbm, ⟨19, _⟩ => ⟨S256x12x256x32, .f32⟩
  | .hbm, ⟨20, _⟩ => ⟨S_, .f32⟩
  | .hbm, ⟨21, _⟩ => ⟨S256x12x256, .f32⟩
  | .hbm, ⟨22, _⟩ => ⟨S256x12x256x1, .f32⟩
  | .hbm, ⟨23, _⟩ => ⟨S256x12x256x1, .f32⟩
  | .hbm, ⟨24, _⟩ => ⟨S_, .f32⟩
  | .hbm, ⟨25, _⟩ => ⟨S256x12x256x1, .f32⟩
  | .hbm, ⟨26, _⟩ => ⟨S256x12x256x1, .f32⟩
  | .hbm, ⟨27, _⟩ => ⟨S256x12x256x32, .f32⟩
  | .hbm, ⟨28, _⟩ => ⟨S256x12x256x32, .f32⟩
  | .hbm, ⟨29, _⟩ => ⟨S256x12x256x32, .f32⟩
  | .hbm, ⟨30, _⟩ => ⟨S_, .f32⟩
  | .hbm, ⟨31, _⟩ => ⟨S256x12x256, .f32⟩
  | .hbm, ⟨32, _⟩ => ⟨S256x12x256x1, .f32⟩
  | .hbm, ⟨33, _⟩ => ⟨S256x12x256x1, .f32⟩
  | .hbm, ⟨34, _⟩ => ⟨S_, .f32⟩
  | .hbm, ⟨35, _⟩ => ⟨S256x12x256x1, .f32⟩
  | .hbm, ⟨36, _⟩ => ⟨S256x12x256x1, .f32⟩
  | .hbm, ⟨37, _⟩ => ⟨S256x12x256x32, .f32⟩
  | .hbm, ⟨38, _⟩ => ⟨S256x12x256x32, .f32⟩
  | .hbm, ⟨39, _⟩ => ⟨S256x12x256x256, .f32⟩
  | .hbm, ⟨40, _⟩ => ⟨S_, .f32⟩
  | .hbm, ⟨41, _⟩ => ⟨S256x12x256x256, .f32⟩
  | .hbm, ⟨42, _⟩ => ⟨S256x12x256x256, .f32⟩
  | .hbm, ⟨43, _⟩ => ⟨S_, .f32⟩
  | .hbm, ⟨44, _⟩ => ⟨S256x12x256, .f32⟩
  | .hbm, ⟨45, _⟩ => ⟨S256x12x256x1, .f32⟩
  | .hbm, ⟨46, _⟩ => ⟨S256x12x256x256, .f32⟩
  | .hbm, ⟨47, _⟩ => ⟨S256x12x256x256, .f32⟩
  | .hbm, ⟨48, _⟩ => ⟨S_, .f32⟩
  | .hbm, ⟨49, _⟩ => ⟨S256x12x256, .f32⟩
  | .hbm, ⟨50, _⟩ => ⟨S_, .f32⟩
  | .hbm, ⟨51, _⟩ => ⟨S256x12x256, .f32⟩
  | .hbm, ⟨52, _⟩ => ⟨S256x12x256, .f32⟩
  | .hbm, ⟨53, _⟩ => ⟨S256x12x256x1, .f32⟩
  | .hbm, ⟨54, _⟩ => ⟨S256x12x256x256, .f32⟩
  | .hbm, ⟨55, _⟩ => ⟨S256x12x256x256, .f32⟩
  | .hbm, ⟨56, _⟩ => ⟨S256x12x256x256, .f32⟩
  | .hbm, ⟨57, _⟩ => ⟨S_, .f32⟩
  | .hbm, ⟨58, _⟩ => ⟨S256x12x256, .f32⟩
  | .hbm, ⟨59, _⟩ => ⟨S256x12x256x1, .f32⟩
  | .hbm, ⟨60, _⟩ => ⟨S256x12x256x256, .f32⟩
  | .hbm, ⟨61, _⟩ => ⟨S256x12x256x256, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S256x12x256x256, .f32⟩
  | .hbm, ⟨66, _⟩ => ⟨S256x12x256x256, .f32⟩
  | .hbm, ⟨67, _⟩ => ⟨S_, .f32⟩
  | .hbm, ⟨68, _⟩ => ⟨S256x12x256x256, .f32⟩
  | .hbm, ⟨69, _⟩ => ⟨S256x12x256x256, .f32⟩
  | .hbm, ⟨70, _⟩ => ⟨S256x12x256x32, .f32⟩
  | .hbm, ⟨71, _⟩ => ⟨S256x256x12x32, .f32⟩
  | .hbm, ⟨72, _⟩ => ⟨S256x256x384, .f32⟩
  | .hbm, ⟨73, _⟩ => ⟨S256x256x384, .f32⟩
  | .hbm, ⟨74, _⟩ => ⟨S1x1x384, .f32⟩
  | .hbm, ⟨75, _⟩ => ⟨S256x256x384, .f32⟩
  | .hbm, ⟨76, _⟩ => ⟨S256x256x384, .f32⟩
  | .hbm, ⟨77, _⟩ => ⟨S256x384x256, .f32⟩
  | .hbm, ⟨78, _⟩ => ⟨S256x384x16x16, .f32⟩
  | _, _ => ⟨S256x384x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_cst_9 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  shapeCasts_S256x384x16x16_S256x384x256 : S256x384x16x16.ShapeCasts S256x384x256
  transposes_S256x384x256_S256x256x384_0_2_1 : S256x384x256.Transposes [0, 2, 1] S256x256x384
  bcast_S1152_S1x1x1152_2 : S1152.BroadcastsInDim S1x1x1152 (![2] : Fin 1 → Fin S1x1x1152.rank)
  bcast_S1x1x1152_S256x256x1152_0_1_2 : S1x1x1152.BroadcastsInDim S256x256x1152 (![0, 1, 2] : Fin 3 → Fin S256x256x1152.rank)
  shapeCasts_S256x256x1152_S256x256x3x12x32 : S256x256x1152.ShapeCasts S256x256x3x12x32
  transposes_S256x256x3x12x32_S3x256x12x256x32_2_0_3_1_4 : S256x256x3x12x32.Transposes [2, 0, 3, 1, 4] S3x256x12x256x32
  slices_S3x256x12x256x32_S1x256x12x256x32_0_0_0_0_0 : S3x256x12x256x32.Slices ![0, 0, 0, 0, 0] S1x256x12x256x32
  shapeCasts_S1x256x12x256x32_S256x12x256x32 : S1x256x12x256x32.ShapeCasts S256x12x256x32
  slices_S3x256x12x256x32_S1x256x12x256x32_1_0_0_0_0 : S3x256x12x256x32.Slices ![1, 0, 0, 0, 0] S1x256x12x256x32
  slices_S3x256x12x256x32_S1x256x12x256x32_2_0_0_0_0 : S3x256x12x256x32.Slices ![2, 0, 0, 0, 0] S1x256x12x256x32
  reducesTo_S256x12x256x32_S256x12x256_d3 : S256x12x256x32.ReducesTo [3] S256x12x256
  h_S_ : 0 < S_.numel
  bcast_S256x12x256_S256x12x256x1_0_1_2 : S256x12x256.BroadcastsInDim S256x12x256x1 (![0, 1, 2] : Fin 3 → Fin S256x12x256x1.rank)
  bcast_S_S256x12x256x1 : S_.BroadcastsInDim S256x12x256x1 (![] : Fin 0 → Fin S256x12x256x1.rank)
  bcast_S256x12x256x1_S256x12x256x32_0_1_2_3 : S256x12x256x1.BroadcastsInDim S256x12x256x32 (![0, 1, 2, 3] : Fin 4 → Fin S256x12x256x32.rank)
  bcast_S_S256x12x256x256 : S_.BroadcastsInDim S256x12x256x256 (![] : Fin 0 → Fin S256x12x256x256.rank)
  reducesTo_S256x12x256x256_S256x12x256_d3 : S256x12x256x256.ReducesTo [3] S256x12x256
  bcast_S256x12x256x1_S256x12x256x256_0_1_2_3 : S256x12x256x1.BroadcastsInDim S256x12x256x256 (![0, 1, 2, 3] : Fin 4 → Fin S256x12x256x256.rank)
  bcast_S_S256x12x256 : S_.BroadcastsInDim S256x12x256 (![] : Fin 0 → Fin S256x12x256.rank)
  transposes_S256x12x256x32_S256x256x12x32_0_2_1_3 : S256x12x256x32.Transposes [0, 2, 1, 3] S256x256x12x32
  shapeCasts_S256x256x12x32_S256x256x384 : S256x256x12x32.ShapeCasts S256x256x384
  bcast_S384_S1x1x384_2 : S384.BroadcastsInDim S1x1x384 (![2] : Fin 1 → Fin S1x1x384.rank)
  bcast_S1x1x384_S256x256x384_0_1_2 : S1x1x384.BroadcastsInDim S256x256x384 (![0, 1, 2] : Fin 3 → Fin S256x256x384.rank)
  transposes_S256x256x384_S256x384x256_0_2_1 : S256x256x384.Transposes [0, 2, 1] S256x384x256
  shapeCasts_S256x384x256_S256x384x16x16 : S256x384x256.ShapeCasts S256x384x16x16
  dot_S256x256x384_S1152x384_S256x256x1152_2_1_01_0_n_n_wf : DotDims.WF S256x256x384 S1152x384 S256x256x1152 [2] [1] [0, 1] [0] [] []
  dot_S256x12x256x32_S256x12x256x32_S256x12x256x256_3_3_2_2_01_01_wf : DotDims.WF S256x12x256x32 S256x12x256x32 S256x12x256x256 [3] [3] [2] [2] [0, 1] [0, 1]
  dot_S256x12x256x256_S256x12x256x32_S256x12x256x32_3_2_2_3_01_01_wf : DotDims.WF S256x12x256x256 S256x12x256x32 S256x12x256x32 [3] [2] [2] [3] [0, 1] [0, 1]
  dot_S256x256x384_S384x384_S256x256x384_2_1_01_0_n_n_wf : DotDims.WF S256x256x384 S384x384 S256x256x384 [2] [1] [0, 1] [0] [] []

variable [Facts₀]

def dot_S256x256x384_S1152x384_S256x256x1152_2_1_01_0_n_n : DotDims S256x256x384 S1152x384 S256x256x1152 where
  lhsContracting := [2]
  rhsContracting := [1]
  lhsNonContracting := [0, 1]
  rhsNonContracting := [0]
  lhsBatch := []
  rhsBatch := []
  wf := dot_S256x256x384_S1152x384_S256x256x1152_2_1_01_0_n_n_wf
def dot_S256x12x256x32_S256x12x256x32_S256x12x256x256_3_3_2_2_01_01 : DotDims S256x12x256x32 S256x12x256x32 S256x12x256x256 where
  lhsContracting := [3]
  rhsContracting := [3]
  lhsNonContracting := [2]
  rhsNonContracting := [2]
  lhsBatch := [0, 1]
  rhsBatch := [0, 1]
  wf := dot_S256x12x256x32_S256x12x256x32_S256x12x256x256_3_3_2_2_01_01_wf
def dot_S256x12x256x256_S256x12x256x32_S256x12x256x32_3_2_2_3_01_01 : DotDims S256x12x256x256 S256x12x256x32 S256x12x256x32 where
  lhsContracting := [3]
  rhsContracting := [2]
  lhsNonContracting := [2]
  rhsNonContracting := [3]
  lhsBatch := [0, 1]
  rhsBatch := [0, 1]
  wf := dot_S256x12x256x256_S256x12x256x32_S256x12x256x32_3_2_2_3_01_01_wf
def dot_S256x256x384_S384x384_S256x256x384_2_1_01_0_n_n : DotDims S256x256x384 S384x384 S256x256x384 where
  lhsContracting := [2]
  rhsContracting := [1]
  lhsNonContracting := [0, 1]
  rhsNonContracting := [0]
  lhsBatch := []
  rhsBatch := []
  wf := dot_S256x256x384_S384x384_S256x256x384_2_1_01_0_n_n_wf

class Facts : Prop extends Facts₀ where

variable [Facts]
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.Spec.lean ====
/-
  Window attention with unit-normalised queries and keys, as one function of the five argument arrays.

  An image is a [384, 256] matrix x (channel, token): the 16 x 16 window flattened row-major. The fused
  projection P = W x + b has 1152 rows: three sections (queries, keys, values) of twelve heads of 32 features,
  row 384 s + 32 h + d. For one head, token n's query and token m's key are each divided by the larger of its
  Euclidean length and a floor, their inner product is scaled, the row of logits is shifted by its maximum,
  soft-maxed, clipped into [floor, 1], and the clipped weights average the head's value features. The twelve heads'
  outputs, side by side (column 32 h + d), go through the output projection: entry (o, n) of the result is
  sum_c PW (o, c) * out (n, c) + pb o. Every operation is the exact one on the extended reals; the four float
  literals are kept as their bit patterns, the same words in both programs.
-/
import Idealize.ShloMosaic.PureOps.Ideal
import Idealize.ShloMosaic.Lib.ValueIdx
import proofs.«179321_j18124761989753_1_alg».proof.Proof.LibRowSoftmax

noncomputable section

namespace Cert.WindowAttention

open Idealize.ShloMosaic Idealize.ShloMosaic.ValueIdx Cert.Lib.RowSoftmax

/-- The floor under a query's or key's Euclidean length. -/
abbrev lengthFloor : EReal := Ideal.ofBits .f32 0x2B8CBCCC#32
/-- The scale on the inner products. -/
abbrev logitScale : EReal := Ideal.ofBits .f32 0x3E3504F3#32
/-- The floor the attention weights are clipped to. -/
abbrev weightFloor : EReal := Ideal.ofBits .f32 0x358637BD#32
/-- The ceiling the attention weights are clipped to. -/
abbrev weightCeil : EReal := Ideal.ofBits .f32 0x3F800000#32

/-- The fused projection of one image: row `o` at token `n`. -/
def proj (W : Fin 1152 → Fin 384 → EReal) (b : Fin 1152 → EReal) (x : Fin 384 → Fin 256 → EReal)
    (o : Fin 1152) (n : Fin 256) : EReal :=
  (∑ c : Fin 384, W o c * x c n) + b o

/-- The projection's row of section `s` (0 queries, 1 keys, 2 values), head `h`, feature `d`. -/
def row (s : Fin 3) (h : Fin 12) (d : Fin 32) : Fin 1152 := ⟨384 * s.val + 32 * h.val + d.val, by omega⟩

/-- A feature vector divided by the larger of its Euclidean length and the floor. -/
def unitVec (t : Fin 32 → EReal) (d : Fin 32) : EReal :=
  Ideal.div (t d) (max (Ideal.sqrt (∑ e : Fin 32, t e * t e)) lengthFloor)

/-- The scaled inner product of a normalised query and a normalised key. -/
def logit (q k : Fin 32 → EReal) : EReal := (∑ d : Fin 32, unitVec q d * unitVec k d) * logitScale

/-- A row of logits minus its maximum. -/
def shifted (s : Fin 256 → EReal) (m : Fin 256) : EReal := s m - maxOf s

/-- The clipped attention weight of key `m` in a row of logits. -/
def weight (s : Fin 256 → EReal) (m : Fin 256) : EReal :=
  min weightCeil (max weightFloor (softmaxOf (shifted s) m))

/-- The row of logits of query token `n` in head `h`, from the projection `P`. -/
def logits (P : Fin 1152 → Fin 256 → EReal) (h : Fin 12) (n : Fin 256) (m : Fin 256) : EReal :=
  logit (fun e => P (row 0 h e) n) (fun e => P (row 1 h e) m)

/-- Head `h`'s output at token `n`, feature `d`. -/
def headOut (P : Fin 1152 → Fin 256 → EReal) (h : Fin 12) (n : Fin 256) (d : Fin 32) : EReal :=
  ∑ m : Fin 256, weight (logits P h n) m * P (row 2 h d) m

/-- The head that column `c` of the concatenated outputs belongs to, and its feature there. -/
def headOf (c : Fin 384) : Fin 12 := ⟨c.val / 32, by omega⟩
def featOf (c : Fin 384) : Fin 32 := ⟨c.val % 32, Nat.mod_lt _ (by omega)⟩

/-- One image's result: output channel `o` at token `n`. -/
def attend (W : Fin 1152 → Fin 384 → EReal) (b : Fin 1152 → EReal) (PW : Fin 384 → Fin 384 → EReal)
    (pb : Fin 384 → EReal) (x : Fin 384 → Fin 256 → EReal) (o : Fin 384) (n : Fin 256) : EReal :=
  (∑ c : Fin 384, PW o c * headOut (proj W b x) (headOf c) n (featOf c)) + pb o

/-- Image `i` of the batch as a [384, 256] matrix: token `n` is window position (n / 16, n % 16). -/
def image (X : (⟨4, ![256, 384, 16, 16]⟩ : Shape).Idx → EReal) (i : Fin 256) (c : Fin 384) (n : Fin 256) : EReal :=
  X (ix4 i c ⟨n.val / 16, by omega⟩ ⟨n.val % 16, Nat.mod_lt _ (by omega)⟩)

/-- The token of window position (r, w). -/
def token (r w : Fin 16) : Fin 256 := ⟨16 * r.val + w.val, by omega⟩

/-- The whole result array as a function of the five argument arrays. -/
def result (X : (⟨4, ![256, 384, 16, 16]⟩ : Shape).Idx → EReal) (W : (⟨2, ![1152, 384]⟩ : Shape).Idx → EReal)
    (B : (⟨1, ![1152]⟩ : Shape).Idx → EReal) (PW : (⟨2, ![384, 384]⟩ : Shape).Idx → EReal)
    (PB : (⟨1, ![384]⟩ : Shape).Idx → EReal) : (⟨4, ![256, 384, 16, 16]⟩ : Shape).Idx → EReal := fun j =>
  attend (fun o c => W (ix2 o c)) (fun o => B (ix1 o)) (fun o c => PW (ix2 o c)) (fun o => PB (ix1 o))
    (image X (j 0)) (j 1) (token (j 2) (j 3))

end Cert.WindowAttention

end
-- ==== Proof.LibRowSoftmaxGuard.lean ====
/-
  Row-wise softmax with a guarded row maximum, read at an index, at the ideal (extended-real) values.

  Some kernels take the row maximum `m` by a reduction folded from `-∞` and then once more take
  `max (-∞) m` before subtracting it. The extra maximum changes nothing — the fold already starts at `-∞` — so
  the chain `exp (s - max (-∞) (max_row s)) / sum_row (exp (s - max (-∞) (max_row s)))`, both row statistics
  kept as columns and spread back over the lanes, read at `(r, j)` is the softmax of row `r` at lane `j`.
-/
import proofs.«179321_j18124761989753_1_alg».proof.Proof.LibRowSoftmax

noncomputable section

namespace Cert.Lib.RowSoftmaxGuard

open Idealize.ShloMosaic Idealize.ShloMosaic.ValueIdx Cert.Lib.RowSoftmax

/-- The guarded chain read at `(r, j)`: the softmax of row `r` at lane `j`. -/
theorem softmax_rows_guarded_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (maximumf (broadcast ⟨1, ![a]⟩ (negInf : Ideal .f32))
            (multiReduction .maximumf [1] ⟨1, ![a]⟩ s 0xFF800000#32 hr hφ hmax)) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (maximumf (broadcast ⟨1, ![a]⟩ (negInf : Ideal .f32))
                (multiReduction .maximumf [1] ⟨1, ![a]⟩ s 0xFF800000#32 hr hφ hmax)) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (maximumf (broadcast ⟨1, ![a]⟩ (negInf : Ideal .f32))
            (multiReduction .maximumf [1] ⟨1, ![a]⟩ s 0xFF800000#32 hr hφ hmax)) hc) hb)) (ix2 r j')
        = weightOf (fun j'' => s (ix2 r j'')) j' := by
    intro j'
    show Ideal.exp (s (ix2 r j') - broadcastTo ⟨2, ![a, b]⟩ (shapeCast ⟨2, ![a, 1]⟩
          (maximumf (broadcast ⟨1, ![a]⟩ (negInf : Ideal .f32))
            (multiReduction .maximumf [1] ⟨1, ![a]⟩ s 0xFF800000#32 hr hφ hmax)) hc) hb (ix2 r j')) = _
    rw [keepdims_apply _ hc hb r j']
    show Ideal.exp (s (ix2 r j') - max negInf (multiReduction .maximumf [1] ⟨1, ![a]⟩ s 0xFF800000#32 hr hφ hmax (ix1 r))) = _
    rw [rowMax_apply s _ hr hφ hmax r]
    show Ideal.exp (s (ix2 r j') - max negInf (maxOf fun j'' => s (ix2 r j''))) = _
    rw [max_negInf_maxOf]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmaxGuard

end
-- ==== Proof.LibDotRowsRows.lean ====
/-
  Cert.Lib.DotRowsRows: a matrix product with the right operand in the [out, in] layout (y = x @ W.T), as a plain sum.

  For a contraction record over [M, K] x [N, K] -> [M, N] with ONE contracted axis, the second axis of each operand,
  the sum over the record's contraction indices of left (lhsIdx j q) * right (rhsIdx j q) at the output index
  j = (p, c) is the sum over k : Fin K of left (p, k) * right (c, k): row p of the left operand against row c of the
  right one. The record enters only through six facts — its contraction shape has rank one and extent K, and the four
  coordinates of the two operand indices — so one lemma serves a kernel's tpu.matmul with dimension numbers
  [1], [1], [0], [0] and a host dot_general contracting [1] x [1]. The values may be of any type with a product and a
  commutative sum; no law of arithmetic beyond re-indexing the sum is used.
-/
import Idealize.ShloMosaic.Lib.ValueIdx

namespace Cert.Lib.DotRowsRows

open Idealize.ShloMosaic Idealize.ShloMosaic.ValueIdx

/-- Row `p` of the left operand against row `c` of the right operand: the contraction over the record's index type
    re-indexed by the one coordinate of that index. -/
theorem sum_rows_rows {α : Type} [AddCommMonoid α] [Mul α] {M K N : Nat}
    (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q ⟨0, Nat.zero_lt_two⟩).val = (j 0).val)
    (hl1 : ∀ (j : (⟨2, ![M, N]⟩ : Shape).Idx) (q : D.contr.Idx), (D.lhsIdx j q ⟨1, Nat.one_lt_two⟩).val = (q ⟨0, by omega⟩).val)
    (hr0 : ∀ (j : (⟨2, ![M, N]⟩ : Shape).Idx) (q : D.contr.Idx), (D.rhsIdx j q ⟨0, Nat.zero_lt_two⟩).val = (j 1).val)
    (hr1 : ∀ (j : (⟨2, ![M, N]⟩ : Shape).Idx) (q : D.contr.Idx), (D.rhsIdx j q ⟨1, Nat.one_lt_two⟩).val = (q ⟨0, by omega⟩).val)
    (L : (⟨2, ![M, K]⟩ : Shape).Idx → α) (R : (⟨2, ![N, K]⟩ : Shape).Idx → α) (p : Fin M) (c : Fin N) :
    ∑ q : D.contr.Idx, L (D.lhsIdx (ix2 p c) q) * R (D.rhsIdx (ix2 p c) q) = ∑ k : Fin K, L (ix2 p k) * R (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.DotRowsRows
-- ==== Proof.LibDotColsCols.lean ====
/-
  Cert.Lib.DotColsCols: a matrix product contracting the FIRST axis of both operands (q^T k), as a plain sum.

  For a contraction record over [K, M] x [K, N] -> [M, N] with ONE contracted axis, the first axis of each operand,
  the sum over the record's contraction indices of left (lhsIdx j q) * right (rhsIdx j q) at the output index
  j = (p, c) is the sum over k : Fin K of left (k, p) * right (k, c): column p of the left operand against column c
  of the right one. The record enters only through six facts — its contraction shape has rank one and extent K, and
  the four coordinates of the two operand indices — so one lemma serves a kernel's tpu.matmul with dimension numbers
  [0], [0], [1], [1] and a host dot_general contracting [0] x [0]. The values may be of any type with a product and
  a commutative sum; no law of arithmetic beyond re-indexing the sum is used.
-/
import Idealize.ShloMosaic.Lib.ValueIdx

namespace Cert.Lib.DotColsCols

open Idealize.ShloMosaic Idealize.ShloMosaic.ValueIdx

/-- Column `p` of the left operand against column `c` of the right operand: the contraction over the record's index
    type re-indexed by the one coordinate of that index. -/
theorem sum_cols_cols {α : Type} [AddCommMonoid α] [Mul α] {M K N : Nat}
    (D : DotDims ⟨2, ![K, M]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q ⟨0, Nat.zero_lt_two⟩).val = (q ⟨0, by omega⟩).val)
    (hl1 : ∀ (j : (⟨2, ![M, N]⟩ : Shape).Idx) (q : D.contr.Idx), (D.lhsIdx j q ⟨1, Nat.one_lt_two⟩).val = (j 0).val)
    (hr0 : ∀ (j : (⟨2, ![M, N]⟩ : Shape).Idx) (q : D.contr.Idx), (D.rhsIdx j q ⟨0, Nat.zero_lt_two⟩).val = (q ⟨0, by omega⟩).val)
    (hr1 : ∀ (j : (⟨2, ![M, N]⟩ : Shape).Idx) (q : D.contr.Idx), (D.rhsIdx j q ⟨1, Nat.one_lt_two⟩).val = (j 1).val)
    (L : (⟨2, ![K, M]⟩ : Shape).Idx → α) (R : (⟨2, ![K, N]⟩ : Shape).Idx → α) (p : Fin M) (c : Fin N) :
    ∑ q : D.contr.Idx, L (D.lhsIdx (ix2 p c) q) * R (D.rhsIdx (ix2 p c) q) = ∑ k : Fin K, L (ix2 k p) * R (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p := funext fun a => Fin.ext (by
    match a with
    | ⟨0, _⟩ => exact (hl0 _ _).trans hk
    | ⟨1, _⟩ => exact hl1 _ _)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotColsCols
-- ==== Proof.KernelHead.lean ====
/-
  One head of the kernel's body, as vector operations and read at an index.

  The body cuts three [32, 256] blocks (feature, token) out of the fused projection — a head's queries, keys and
  values —, divides every token's query and key column by the larger of its length and a floor, multiplies the two
  (contracting the feature axis), scales, shifts each row of logits by its maximum, soft-maxes the rows, clips, and
  contracts the clipped weights with the values over the key tokens. The operations are the twelve heads' common
  text; a head differs only in the three row offsets of its blocks. Read at an index, each step is the matching
  step of the specification: no law of arithmetic is used, the sums keep their order and their factors' order.
-/
import proofs.«179321_j18124761989753_1_alg».proof.Proof.Gen.KernelIdeal.Skeleton
import proofs.«179321_j18124761989753_1_alg».proof.Proof.Spec
import proofs.«179321_j18124761989753_1_alg».proof.Proof.LibRowSoftmaxGuard
import proofs.«179321_j18124761989753_1_alg».proof.Proof.LibDotRowsRows
import proofs.«179321_j18124761989753_1_alg».proof.Proof.LibDotColsCols
import Idealize.ShloMosaic.Lib.ValueLayout
import Idealize.ShloMosaic.Lib.Pipeline.Value
import Idealize.ShloMosaic.PureOps.Ideal.Laws

noncomputable section

namespace Cert.KernelIdeal.Head

open Idealize.ShloMosaic Idealize.ShloMosaic.ValueIdx Cert.KernelIdeal Cert.KernelIdeal.Gen Cert.Lib.RowSoftmax Cert.WindowAttention

variable {F : FTy → Type} [FloatOps F]

/-! ## The head's steps as vector operations -/

/-- Every token's column of a [32, 256] block divided by the larger of its Euclidean length and the floor. -/
def unitCols (v : FVec F S32x256 .f32) : FVec F S32x256 .bf16 :=
  truncf .bf16 (divf v (broadcastTo S32x256 (maximumf (sqrt (shapeCast S1x256 (multiReduction .add [0] S256 (mulf v v) 0x00000000#32 reduces_S32x256_S256 (.inl rfl) rfl) shapeCasts_S256_S1x256)) (broadcast S1x256 (Scalar.ofBits .f32 0x2B8CBCCC#32))) broadcasts_S1x256_S32x256)) bitsLt_bf16_f32

/-- The scaled inner products of the normalised query columns with the normalised key columns. -/
def scores (vq vk : FVec F S32x256 .f32) : FVec F S256x256 .f32 :=
  mulf (matmul dot_S32x256_S32x256_S256x256_0_0_1_1_n_n none (unitCols vq) (unitCols vk) (constant S256x256 .f32 0x00000000#32)) (broadcast S256x256 (Scalar.ofBits .f32 0x3E3504F3#32))

/-- Every row minus its maximum. -/
def shiftRows (s : FVec F S256x256 .f32) : FVec F S256x256 .f32 :=
  subf s (broadcastTo S256x256 (shapeCast S256x1 (multiReduction .maximumf [1] S256 s 0xFF800000#32 reduces_S256x256_S256 (.inl rfl) rfl) shapeCasts_S256_S256x1) broadcasts_S256x1_S256x256)

/-- The rows' exponentials of the entries minus the (guarded) row maximum. -/
def expRows (s : FVec F S256x256 .f32) : FVec F S256x256 .f32 :=
  exp (subf s (broadcastTo S256x256 (shapeCast S256x1 (maximumf (broadcast S256 (Scalar.ofBits .f32 0xFF800000#32)) (multiReduction .maximumf [1] S256 s 0xFF800000#32 reduces_S256x256_S256 (.inl rfl) rfl)) shapeCasts_S256_S256x1) broadcasts_S256x1_S256x256))

/-- Row-wise softmax. -/
def softRows (s : FVec F S256x256 .f32) : FVec F S256x256 .f32 :=
  divf (expRows s) (broadcastTo S256x256 (shapeCast S256x1 (multiReduction .add [1] S256 (expRows s) 0x00000000#32 reduces_S256x256_S256 (.inl rfl) rfl) shapeCasts_S256_S256x1) broadcasts_S256x1_S256x256)

/-- The attention weights before clipping, from a head's query and key blocks. -/
def probs (vq vk : FVec F S32x256 .f32) : FVec F S256x256 .f32 := softRows (shiftRows (scores vq vk))

/-- The clipped weights contracted with the value block over the key tokens: [256, 32] (token, feature). -/
def headRows (vv : FVec F S32x256 .f32) (p : FVec F S256x256 .f32) : FVec F S256x32 .bf16 :=
  truncf .bf16 (matmul dot_S256x256_S32x256_S256x32_1_1_0_0_n_n none (truncf .bf16 (minimumf (broadcast S256x256 (Scalar.ofBits .f32 0x3F800000#32)) (maximumf (broadcast S256x256 (Scalar.ofBits .f32 0x358637BD#32)) p)) bitsLt_bf16_f32) (truncf .bf16 vv bitsLt_bf16_f32) (constant S256x32 .f32 0x00000000#32)) bitsLt_bf16_f32

/-! ## Read at an index, at the ideal values -/

/-- The sum of squares down a column. -/
theorem colSumSq_apply (v : FVec Ideal S32x256 .f32) (n : Fin 256) :
    multiReduction .add [0] S256 (mulf v v) 0x00000000#32 reduces_S32x256_S256 (.inl rfl) rfl (ix1 n)
      = ∑ e : Fin 32, v (ix2 e n) * v (ix2 e n) := by
  refine (Ideal.multiReduction_add_single (mulf v v) _ reduces_S32x256_S256 (.inl rfl) rfl (ix1 n)).trans ?_
  refine Finset.sum_congr rfl fun e _ => ?_
  have hl : reduces_S32x256_S256.lift (ix1 n) e = ix2 e n := by
    funext c; apply Fin.ext
    match c with
    | ⟨0, _⟩ => rfl
    | ⟨1, _⟩ => rfl
  exact congrArg (fun i => v i * v i) hl

/-- A normalised block at (feature d, token n): the token's column, normalised, at d. -/
theorem unitCols_apply (v : FVec Ideal S32x256 .f32) (d : Fin 32) (n : Fin 256) :
    unitCols v (ix2 d n) = unitVec (fun e => v (ix2 e n)) d := by
  show Ideal.div (v (ix2 d n)) (broadcastTo S32x256 (maximumf (sqrt (shapeCast S1x256 (multiReduction .add [0] S256 (mulf v v) 0x00000000#32 reduces_S32x256_S256 (.inl rfl) rfl) shapeCasts_S256_S1x256)) (broadcast S1x256 (Scalar.ofBits .f32 0x2B8CBCCC#32))) broadcasts_S1x256_S32x256 (ix2 d n)) = _
  rw [broadcastTo_1b_ab_apply _ broadcasts_S1x256_S32x256 d n]
  show Ideal.div (v (ix2 d n)) (max (Ideal.sqrt (shapeCast S1x256 (multiReduction .add [0] S256 (mulf v v) 0x00000000#32 reduces_S32x256_S256 (.inl rfl) rfl) shapeCasts_S256_S1x256 (ix2 (0 : Fin 1) n))) lengthFloor) = _
  rw [shapeCast_a_1a_apply _ shapeCasts_S256_S1x256 (0 : Fin 1) n, colSumSq_apply v n]
  rfl

/-- The scores at (query token n, key token m). -/
theorem scores_apply (vq vk : FVec Ideal S32x256 .f32) (n m : Fin 256) :
    scores vq vk (ix2 n m) = logit (fun e => vq (ix2 e n)) (fun e => vk (ix2 e m)) := by
  show (matmul dot_S32x256_S32x256_S256x256_0_0_1_1_n_n none (unitCols vq) (unitCols vk) (constant S256x256 .f32 0x00000000#32) (ix2 n m)) * logitScale = _
  unfold logit
  refine congrArg (· * logitScale) ?_
  refine (Ideal.matmul_constant_zero_apply dot_S32x256_S32x256_S256x256_0_0_1_1_n_n none (unitCols vq) (unitCols vk) (ix2 n m)).trans ?_
  refine (Cert.Lib.DotColsCols.sum_cols_cols dot_S32x256_S32x256_S256x256_0_0_1_1_n_n rfl rfl
      (fun _ _ => rfl) (fun _ _ => rfl) (fun _ _ => rfl) (fun _ _ => rfl) (unitCols vq) (unitCols vk) n m).trans ?_
  refine Finset.sum_congr rfl fun k _ => ?_
  rw [unitCols_apply, unitCols_apply]

/-- A shifted row at (n, m). -/
theorem shiftRows_apply (s : FVec Ideal S256x256 .f32) (n m : Fin 256) :
    shiftRows s (ix2 n m) = shifted (fun m' => s (ix2 n m')) m := by
  show s (ix2 n m) - broadcastTo S256x256 (shapeCast S256x1 (multiReduction .maximumf [1] S256 s 0xFF800000#32 reduces_S256x256_S256 (.inl rfl) rfl) shapeCasts_S256_S256x1) broadcasts_S256x1_S256x256 (ix2 n m) = _
  rw [keepdims_apply _ shapeCasts_S256_S256x1 broadcasts_S256x1_S256x256 n m,
    rowMax_apply s 0xFF800000#32 reduces_S256x256_S256 (.inl rfl) rfl n]
  rfl

/-- The row-wise softmax at (n, m): the softmax of row n at lane m. -/
theorem softRows_apply (s : FVec Ideal S256x256 .f32) (n m : Fin 256) :
    softRows s (ix2 n m) = softmaxOf (fun m' => s (ix2 n m')) m :=
  Cert.Lib.RowSoftmaxGuard.softmax_rows_guarded_apply s reduces_S256x256_S256 shapeCasts_S256_S256x1
    broadcasts_S256x1_S256x256 (.inl rfl) rfl rfl n m

/-- The clipped weights against the values at (token n, feature d): a sum over the key tokens. -/
theorem headRows_apply (vv : FVec Ideal S32x256 .f32) (p : FVec Ideal S256x256 .f32) (n : Fin 256) (d : Fin 32) :
    headRows vv p (ix2 n d) = ∑ m : Fin 256, min weightCeil (max weightFloor (p (ix2 n m))) * vv (ix2 d m) := by
  show matmul dot_S256x256_S32x256_S256x32_1_1_0_0_n_n none (truncf .bf16 (minimumf (broadcast S256x256 (Scalar.ofBits .f32 0x3F800000#32)) (maximumf (broadcast S256x256 (Scalar.ofBits .f32 0x358637BD#32)) p)) bitsLt_bf16_f32) (truncf .bf16 vv bitsLt_bf16_f32) (constant S256x32 .f32 0x00000000#32) (ix2 n d) = _
  refine (Ideal.matmul_constant_zero_apply dot_S256x256_S32x256_S256x32_1_1_0_0_n_n none _ _ (ix2 n d)).trans ?_
  exact Cert.Lib.DotRowsRows.sum_rows_rows dot_S256x256_S32x256_S256x32_1_1_0_0_n_n rfl rfl
    (fun _ _ => rfl) (fun _ _ => rfl) (fun _ _ => rfl) (fun _ _ => rfl) _ _ n d

/-! ## A head's blocks of the fused projection -/

/-- The 32 rows of the fused projection from row `o` on. -/
def block (P : FVec F S1152x256 .f32) (o : ℕ) (hs : S1152x256.Slices ![o, 0] S32x256) : FVec F S32x256 .f32 :=
  extractStridedSlice S32x256 ![o, 0] P hs

theorem block_apply (P : FVec Ideal S1152x256 .f32) (o : ℕ) (hs : S1152x256.Slices ![o, 0] S32x256)
    (d : Fin 32) (n : Fin 256) (k : Fin 1152) (hk : k.val = o + d.val) : block P o hs (ix2 d n) = P (ix2 k n) :=
  slice2_axis0_apply o P hs d n k hk

theorem slices_q : ∀ h : Fin 12, S1152x256.Slices ![32 * h.val, 0] S32x256 := by decide
theorem slices_k : ∀ h : Fin 12, S1152x256.Slices ![384 + 32 * h.val, 0] S32x256 := by decide
theorem slices_v : ∀ h : Fin 12, S1152x256.Slices ![768 + 32 * h.val, 0] S32x256 := by decide

theorem row0_val (h : Fin 12) (e : Fin 32) : (row 0 h e).val = 32 * h.val + e.val := by
  show 384 * 0 + 32 * h.val + e.val = _; omega
theorem row1_val (h : Fin 12) (e : Fin 32) : (row 1 h e).val = 384 + 32 * h.val + e.val := by
  show 384 * 1 + 32 * h.val + e.val = _; omega
theorem row2_val (h : Fin 12) (e : Fin 32) : (row 2 h e).val = 768 + 32 * h.val + e.val := by
  show 384 * 2 + 32 * h.val + e.val = _; omega

/-- Head `h`'s output block [256, 32] (token, feature) from the fused projection. -/
def headPiece (P : FVec F S1152x256 .f32) (h : Fin 12) : FVec F S256x32 .bf16 :=
  headRows (block P (768 + 32 * h.val) (slices_v h))
    (probs (block P (32 * h.val) (slices_q h)) (block P (384 + 32 * h.val) (slices_k h)))

/-- The unclipped weights of head `h` at (n, m). -/
theorem probs_apply (P : FVec Ideal S1152x256 .f32) (h : Fin 12) (n m : Fin 256) :
    probs (block P (32 * h.val) (slices_q h)) (block P (384 + 32 * h.val) (slices_k h)) (ix2 n m)
      = softmaxOf (shifted (logits (fun o t => P (ix2 o t)) h n)) m := by
  unfold probs
  rw [softRows_apply]
  refine congrArg (fun f => softmaxOf f m) (funext fun m' => ?_)
  rw [shiftRows_apply]
  refine congrArg (fun f => shifted f m') (funext fun m'' => ?_)
  rw [scores_apply]
  unfold logits
  refine congrArg₂ logit (funext fun e => ?_) (funext fun e => ?_)
  · exact block_apply P _ _ e n (row 0 h e) (row0_val h e)
  · exact block_apply P _ _ e m'' (row 1 h e) (row1_val h e)

/-- Head `h`'s output block at (token n, feature d) is the specification's head output. -/
theorem headPiece_apply (P : FVec Ideal S1152x256 .f32) (h : Fin 12) (n : Fin 256) (d : Fin 32) :
    headPiece P h (ix2 n d) = headOut (fun o t => P (ix2 o t)) h n d := by
  unfold headPiece headOut
  rw [headRows_apply]
  refine Finset.sum_congr rfl fun m _ => ?_
  rw [probs_apply, block_apply P _ _ d m (row 2 h d) (row2_val h d)]
  rfl

end Cert.KernelIdeal.Head

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.KernelTrip.lean ====
/-
  What one trip of the body's loop stores: one image's result block as a function of the four weight blocks and
  the image's block, read at an index.

  The trip multiplies the [1152, 384] weights with the image (channel, token) and adds the bias column: the fused
  projection. Twelve heads are cut from it, their [256, 32] outputs laid side by side (column 32 h + d), and the
  [384, 384] output weights contract that [256, 384] matrix over its columns; the output bias column is added.
  At (o, n) this is the specification's `attend`, with the sums and their factors in the specification's order.
-/
import proofs.«179321_j18124761989753_1_alg».proof.Proof.KernelHead
import proofs.«179321_j18124761989753_1_alg».proof.Proof.LibPlainDot

set_option maxRecDepth 16384

noncomputable section

namespace Cert.KernelIdeal.Trip

open Idealize.ShloMosaic Idealize.ShloMosaic.ValueIdx Cert.KernelIdeal Cert.KernelIdeal.Gen Cert.Lib.RowSoftmax
  Cert.WindowAttention Cert.KernelIdeal.Head

variable {F : FTy → Type} [FloatOps F]

/-! ## The trip's value as vector operations -/

/-- The fused projection of the trip's image, from the loaded weights, bias column and image block. -/
def fusedOf (v0 : Vec F S1152x384 .f32) (v4 : Vec F S1152x1 .f32) (v10 : Vec F S1x384x256 .f32) : FVec F S1152x256 .f32 :=
  k0_pay4 (k0_pay1 v0) (k0_pay2 v4) v10

/-- The twelve heads' output blocks side by side: [256, 384] (token, 32 h + d). -/
def heads (P : FVec F S1152x256 .f32) : FVec F S256x384 .bf16 :=
  concatenate S256x384 1 [⟨S256x32, headPiece P 0⟩, ⟨S256x32, headPiece P 1⟩, ⟨S256x32, headPiece P 2⟩, ⟨S256x32, headPiece P 3⟩, ⟨S256x32, headPiece P 4⟩, ⟨S256x32, headPiece P 5⟩, ⟨S256x32, headPiece P 6⟩, ⟨S256x32, headPiece P 7⟩, ⟨S256x32, headPiece P 8⟩, ⟨S256x32, headPiece P 9⟩, ⟨S256x32, headPiece P 10⟩, ⟨S256x32, headPiece P 11⟩] concatenates_S256x32_S256x32_S256x32_S256x32_S256x32_S256x32_S256x32_S256x32_S256x32_S256x32_S256x32_S256x32_S256x384_d1

/-- The output projection of the concatenated heads, plus the bias column, as a [1, 384, 256] block. -/
def outProj (v2 : Vec F S384x384 .f32) (v6 : Vec F S384x1 .f32) (cat : FVec F S256x384 .bf16) : FVec F S1x384x256 .f32 :=
  shapeCast S1x384x256 (addf (matmul dot_S384x384_S256x384_S384x256_1_1_0_0_n_n none (truncf .bf16 v2 bitsLt_bf16_f32) cat (constant S384x256 .f32 0x00000000#32)) (broadcastTo S384x256 (shapeCast S384x1 v6 shapeCasts_S384x1_S384x1) broadcasts_S384x1_S384x256)) shapeCasts_S384x256_S1x384x256

/-- One image's result block. -/
def imageOut (v0 : Vec F S1152x384 .f32) (v2 : Vec F S384x384 .f32) (v4 : Vec F S1152x1 .f32) (v6 : Vec F S384x1 .f32)
    (v10 : Vec F S1x384x256 .f32) : FVec F S1x384x256 .f32 :=
  outProj v2 v6 (heads (fusedOf v0 v4 v10))

/-- The same value spelt as the body's own chain of payloads: what a trip's store holds. -/
def stored (v0 : Vec F S1152x384 .f32) (v2 : Vec F S384x384 .f32) (v4 : Vec F S1152x1 .f32) (v6 : Vec F S384x1 .f32)
    (v10 : Vec F S1x384x256 .f32) : FVec F S1x384x256 .f32 :=
  k0_pay3 v2 v6
    (k0_pay7 (k0_pay5 (k0_pay1 v0) (k0_pay2 v4) v10) (k0_pay6 (k0_pay1 v0) (k0_pay2 v4) v10))
    (k0_pay10 (k0_pay8 (fusedOf v0 v4 v10)) (k0_pay9 (fusedOf v0 v4 v10)))
    (k0_pay13 (k0_pay11 (fusedOf v0 v4 v10)) (k0_pay12 (fusedOf v0 v4 v10)))
    (k0_pay16 (k0_pay14 (fusedOf v0 v4 v10)) (k0_pay15 (fusedOf v0 v4 v10)))
    (k0_pay19 (k0_pay17 (fusedOf v0 v4 v10)) (k0_pay18 (fusedOf v0 v4 v10)))
    (k0_pay22 (k0_pay20 (fusedOf v0 v4 v10)) (k0_pay21 (fusedOf v0 v4 v10)))
    (k0_pay25 (k0_pay23 (fusedOf v0 v4 v10)) (k0_pay24 (fusedOf v0 v4 v10)))
    (k0_pay28 (k0_pay26 (fusedOf v0 v4 v10)) (k0_pay27 (fusedOf v0 v4 v10)))
    (k0_pay31 (k0_pay29 (fusedOf v0 v4 v10)) (k0_pay30 (fusedOf v0 v4 v10)))
    (k0_pay34 (k0_pay32 (fusedOf v0 v4 v10)) (k0_pay33 (fusedOf v0 v4 v10)))
    (k0_pay37 (k0_pay35 (fusedOf v0 v4 v10)) (k0_pay36 (fusedOf v0 v4 v10)))
    (k0_pay38 (fusedOf v0 v4 v10)) (k0_pay39 (fusedOf v0 v4 v10))

/-! ## The payload chain is the structured value -/

/-- The body's chain of payloads is the structured value: the payloads unfold to the same operations. -/
theorem stored_eq (v0 : Vec F S1152x384 .f32) (v2 : Vec F S384x384 .f32) (v4 : Vec F S1152x1 .f32) (v6 : Vec F S384x1 .f32)
    (v10 : Vec F S1x384x256 .f32) : stored v0 v2 v4 v6 v10 = imageOut v0 v2 v4 v6 v10 := rfl

/-! ## Read at an index, at the ideal values -/

/-- The fused projection at (row o, token n). -/
theorem fusedOf_apply (v0 : Vec Ideal S1152x384 .f32) (v4 : Vec Ideal S1152x1 .f32) (v10 : Vec Ideal S1x384x256 .f32)
    (o : Fin 1152) (n : Fin 256) :
    fusedOf v0 v4 v10 (ix2 o n)
      = proj (fun o c => v0 (ix2 o c)) (fun o => v4 (ix2 o (0 : Fin 1))) (fun c t => v10 (ix3 (0 : Fin 1) c t)) o n := by
  show matmul (F := Ideal) dot_S1152x384_S384x256_S1152x256_1_0_0_1_n_n none (truncf .bf16 v0 bitsLt_bf16_f32) (truncf .bf16 (shapeCast S384x256 v10 shapeCasts_S1x384x256_S384x256) bitsLt_bf16_f32) (constant S1152x256 .f32 0x00000000#32) (ix2 o n)
      + broadcastTo S1152x256 (shapeCast S1152x1 v4 shapeCasts_S1152x1_S1152x1) broadcasts_S1152x1_S1152x256 (ix2 o n) = _
  rw [broadcastTo_a1_ab_apply _ broadcasts_S1152x1_S1152x256 o n, shapeCast_self v4 shapeCasts_S1152x1_S1152x1]
  unfold proj
  refine congrArg (· + v4 (ix2 o (0 : Fin 1))) ?_
  refine (Ideal.matmul_constant_zero_apply dot_S1152x384_S384x256_S1152x256_1_0_0_1_n_n none _ _ (ix2 o n)).trans ?_
  refine (Cert.Lib.PlainDot.sum_rows_cols dot_S1152x384_S384x256_S1152x256_1_0_0_1_n_n rfl rfl
    (fun _ _ => rfl) (fun _ _ => rfl) (fun _ _ => rfl) (fun _ _ => rfl) _ _ (ix2 o n)).trans ?_
  refine Finset.sum_congr rfl fun c _ => ?_
  exact congrArg (v0 (ix2 o c) * ·) (shapeCast_1ab_ab_apply v10 shapeCasts_S1x384x256_S384x256 c n)

/-- The concatenated heads at (token n, column c): head c / 32's block at (n, c % 32). -/
theorem heads_apply (P : FVec Ideal S1152x256 .f32) (n : Fin 256) (c : Fin 384) :
    heads P (ix2 n c) = headPiece P (headOf c) (ix2 n (featOf c)) := by
  show concatenate S256x384 1 (List.ofFn fun h : Fin 12 => (⟨S256x32, headPiece P h⟩ : (s : Shape) × (s.Idx → Ideal .bf16))) concatenates_S256x32_S256x32_S256x32_S256x32_S256x32_S256x32_S256x32_S256x32_S256x32_S256x32_S256x32_S256x32_S256x384_d1 (ix2 n c) = _
  exact concatenate_ofFn_apply (t := S256x384) (s₁ := S256x32) (1 : Fin 2) (fun h : Fin 12 => headPiece P h) _ rfl 32 rfl (ix2 n c) (headOf c) rfl
    (ix2 n (featOf c)) rfl (fun b hb => by
      match b with
      | ⟨0, _⟩ => rfl
      | ⟨1, _⟩ => exact absurd rfl hb)

/-- The output projection at (channel o, token n). -/
theorem outProj_apply (v2 : Vec Ideal S384x384 .f32) (v6 : Vec Ideal S384x1 .f32) (cat : FVec Ideal S256x384 .bf16)
    (u : Fin 1) (o : Fin 384) (n : Fin 256) :
    outProj v2 v6 cat (ix3 u o n) = (∑ c : Fin 384, v2 (ix2 o c) * cat (ix2 n c)) + v6 (ix2 o (0 : Fin 1)) := by
  unfold outProj
  rw [shapeCast_ab_1ab_apply _ shapeCasts_S384x256_S1x384x256 u o n]
  show matmul (F := Ideal) dot_S384x384_S256x384_S384x256_1_1_0_0_n_n none (truncf .bf16 v2 bitsLt_bf16_f32) cat (constant S384x256 .f32 0x00000000#32) (ix2 o n)
      + broadcastTo S384x256 (shapeCast S384x1 v6 shapeCasts_S384x1_S384x1) broadcasts_S384x1_S384x256 (ix2 o n) = _
  rw [broadcastTo_a1_ab_apply _ broadcasts_S384x1_S384x256 o n, shapeCast_self v6 shapeCasts_S384x1_S384x1]
  refine congrArg (· + v6 (ix2 o (0 : Fin 1))) ?_
  refine (Ideal.matmul_constant_zero_apply dot_S384x384_S256x384_S384x256_1_1_0_0_n_n none _ _ (ix2 o n)).trans ?_
  exact Cert.Lib.DotRowsRows.sum_rows_rows dot_S384x384_S256x384_S384x256_1_1_0_0_n_n rfl rfl
    (fun _ _ => rfl) (fun _ _ => rfl) (fun _ _ => rfl) (fun _ _ => rfl) _ _ o n

/-- One image's result block at (o, n) is the specification's `attend` of the loaded blocks. -/
theorem imageOut_apply (v0 : Vec Ideal S1152x384 .f32) (v2 : Vec Ideal S384x384 .f32) (v4 : Vec Ideal S1152x1 .f32)
    (v6 : Vec Ideal S384x1 .f32) (v10 : Vec Ideal S1x384x256 .f32) (u : Fin 1) (o : Fin 384) (n : Fin 256) :
    imageOut v0 v2 v4 v6 v10 (ix3 u o n)
      = attend (fun o c => v0 (ix2 o c)) (fun o => v4 (ix2 o (0 : Fin 1))) (fun o c => v2 (ix2 o c))
          (fun o => v6 (ix2 o (0 : Fin 1))) (fun c t => v10 (ix3 (0 : Fin 1) c t)) o n := by
  unfold imageOut attend
  rw [outProj_apply]
  refine congrArg (· + v6 (ix2 o (0 : Fin 1))) (Finset.sum_congr rfl fun c _ => ?_)
  rw [heads_apply, headPiece_apply]
  exact congrArg (fun P => v2 (ix2 o c) * headOut P (headOf c) n (featOf c))
    (funext fun o' => funext fun t => fusedOf_apply v0 v4 v10 o' t)

end Cert.KernelIdeal.Trip

end
-- ==== Proof.KernelPieces.lean ====
/-
  What the body leaves in the output block, read at an index.

  The body's loop makes eight trips; trip k loads image k of the [8, 384, 256] input block and stores image k's
  result at the same place of the output block, nothing else. So after the body the output block at (k, o, n) holds
  image k's result at (o, n): the stores' rectangles tile the block, and each store's value is one function of the
  block index restricted to its rectangle.
-/
import proofs.«179321_j18124761989753_1_alg».proof.Proof.Gen.KernelIdeal.Frame
import proofs.«179321_j18124761989753_1_alg».proof.Proof.KernelTrip

set_option maxRecDepth 16384

noncomputable section

namespace Cert.KernelIdeal.Pieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Trip

variable {F : FTy → Type} [FloatOps F]

/-- Image `k`'s rectangle in the [8, 384, 256] block: one image from offset (k, 0, 0). -/
abbrev imgRect (k : Fin k0_t1_loop.trips) : Rect S8x384x256 :=
  Rect.unit (s := S8x384x256) (k0_off1 k) S1x384x256.size (k0_off1_inb k)

/-- Trip `k` writes ONE piece: image `k`'s result, computed from the image it loaded, at image `k`'s place. -/
theorem tripL_eq (𝒱 : Variants) (c : Dev nD) (bd : Option 𝒱.V) (i : grid0.Coords) (arg1 : Memref sig .tc .vmem S8x384x256 .f32) (harg1 : arg1.IsWhole) (arg2 : Memref sig .tc .vmem S1152x384 .f32) (harg2 : arg2.IsWhole) (arg3 : Memref sig .tc .vmem S1152x1 .f32) (harg3 : arg3.IsWhole) (arg4 : Memref sig .tc .vmem S384x384 .f32) (harg4 : arg4.IsWhole) (arg5 : Memref sig .tc .vmem S384x1 .f32) (harg5 : arg5.IsWhole) (arg6 : Memref sig .tc .vmem S8x384x256 .f32) (harg6 : arg6.IsWhole)
    (v0 : Vec F S1152x384 .f32) (v2 : Vec F S384x384 .f32) (v4 : Vec F S1152x1 .f32) (v6 : Vec F S384x1 .f32)
    (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 v0 v2 v4 v6 X_arg1 k
      = [⟨imgRect k, stored v0 v2 v4 v6 (View.readAt (Elt F) arg1.view (imgRect k).toLoadRect X_arg1)⟩] := by
  unfold tripL_k0_t1 trip_k0_t1
  dsimp only
  sl_unfold_words
  rfl

/-- What the body leaves in the output block: at (k, o, n), image k's result at (o, n). -/
def blockOut (x0 : Vec F S8x384x256 .f32) (x1 : Vec F S1152x384 .f32) (x2 : Vec F S1152x1 .f32) (x3 : Vec F S384x384 .f32)
    (x4 : Vec F S384x1 .f32) : S8x384x256.Idx → Elt F .f32 := fun y =>
  imageOut x1 x3 x2 x4 (fun z => x0 (ix3 (n0 := 8) (n1 := 384) (n2 := 256) (y 0) (z 1) (z 2)))
    (ix3 (n0 := 1) (n1 := 384) (n2 := 256) 0 (y 1) (y 2))

/-- A trip's stored value is that function on the trip's rectangle. -/
theorem stored_eq_blockOut (arg1 : Memref sig .tc .vmem S8x384x256 .f32) (harg1 : arg1.IsWhole)
    (x0 : Vec F S8x384x256 .f32) (x1 : Vec F S1152x384 .f32) (x2 : Vec F S1152x1 .f32) (x3 : Vec F S384x384 .f32)
    (x4 : Vec F S384x1 .f32) (k : Fin k0_t1_loop.trips) (x : (imgRect k).shape.Idx) :
    stored x1 x3 x2 x4 (View.readAt (Elt F) arg1.view (imgRect k).toLoadRect (harg1.unread x0)) x
      = blockOut x0 x1 x2 x3 x4 ((imgRect k).emb x) := by
  have hoff := k0_off1_eq k
  have h0 : k0_off1 k 0 = k.val := by rw [hoff]; rfl
  have h1 : k0_off1 k 1 = 0 := by rw [hoff]; rfl
  have h2 : k0_off1 k 2 = 0 := by rw [hoff]; rfl
  have hx0 : (x 0).val = 0 := by have := (x 0).isLt; show (x 0).val = 0; change (x 0).val < 1 at this; omega
  rw [stored_eq, View.readAt_eq_ld, harg1.read_unread]
  unfold blockOut
  refine congrArg₂ (imageOut x1 x3 x2 x4) (funext fun z => congrArg x0 (funext fun a => Fin.ext ?_))
    (funext fun a => Fin.ext ?_)
  · have hz0 : (z 0).val = 0 := by have := (z 0).isLt; change (z 0).val < 1 at this; omega
    match a with
    | ⟨0, _⟩ =>
      show k0_off1 k 0 + 1 * (z 0).val = k0_off1 k 0 + 1 * (x 0).val
      rw [hz0, hx0]
    | ⟨1, _⟩ =>
      show k0_off1 k 1 + 1 * (z 1).val = (z 1).val
      rw [h1]; omega
    | ⟨2, _⟩ =>
      show k0_off1 k 2 + 1 * (z 2).val = (z 2).val
      rw [h2]; omega
  · match a with
    | ⟨0, _⟩ => exact hx0
    | ⟨1, _⟩ =>
      show (x 1).val = k0_off1 k 1 + 1 * (x 1).val
      rw [h1]; omega
    | ⟨2, _⟩ =>
      show (x 2).val = k0_off1 k 2 + 1 * (x 2).val
      rw [h2]; omega

/-- Every piece of the trips before `n` holds that function on its rectangle. -/
theorem pieces_hold (𝒱 : Variants) (c : Dev nD) (bd : Option 𝒱.V) (i : grid0.Coords) (arg1 : Memref sig .tc .vmem S8x384x256 .f32) (harg1 : arg1.IsWhole) (arg2 : Memref sig .tc .vmem S1152x384 .f32) (harg2 : arg2.IsWhole) (arg3 : Memref sig .tc .vmem S1152x1 .f32) (harg3 : arg3.IsWhole) (arg4 : Memref sig .tc .vmem S384x384 .f32) (harg4 : arg4.IsWhole) (arg5 : Memref sig .tc .vmem S384x1 .f32) (harg5 : arg5.IsWhole) (arg6 : Memref sig .tc .vmem S8x384x256 .f32) (harg6 : arg6.IsWhole)
    (x0 : Vec F S8x384x256 .f32) (x1 : Vec F S1152x384 .f32) (x2 : Vec F S1152x1 .f32) (x3 : Vec F S384x384 .f32)
    (x4 : Vec F S384x1 .f32) :
    ∀ n : ℕ, n ≤ k0_t1_loop.trips →
      ∀ p ∈ pb_k0_t1 (F := F) 𝒱 c bd i arg1 harg1 arg2 harg2 arg3 harg3 arg4 harg4 arg5 harg5 arg6 harg6 x1 x3 x2 x4 (harg1.unread x0) n,
        ∀ x : p.1.shape.Idx, p.2 x = blockOut x0 x1 x2 x3 x4 (p.1.emb x)
  | 0, _, p, hp, _ => by rw [pb_k0_t1.eq_1] at hp; exact absurd hp List.not_mem_nil
  | n + 1, hn, p, hp, x => by
    have hk : n < k0_t1_loop.trips := hn
    rw [show n + 1 = (⟨n, hk⟩ : Fin k0_t1_loop.trips).val + 1 from rfl, pb_k0_t1_succ, tripL_eq] at hp
    rcases List.mem_append.mp hp with h | h
    · obtain rfl := List.mem_singleton.mp h
      exact stored_eq_blockOut arg1 harg1 x0 x1 x2 x3 x4 ⟨n, hk⟩ x
    · exact pieces_hold 𝒱 c bd i arg1 harg1 arg2 harg2 arg3 harg3 arg4 harg4 arg5 harg5 arg6 harg6 x0 x1 x2 x3 x4 n (Nat.le_of_lt hk) p h x

/-- A whole staging buffer read through the whole-shape rectangle is its contents. -/
theorem load_whole {S : Shape} (m : Memref sig .tc .vmem S .f32) (hm : m.IsWhole) (X : Vec F S .f32)
    {off : Fin S.rank → Nat} (hoff : off = fun _ => 0) (inb : ∀ a, off a + S.size a ≤ S.size a) :
    View.readAt (Elt F) m.view (Rect.unit off S.size inb).toLoadRect (hm.unread X) = X := by
  rw [View.readAt_eq_ld, hm.read_unread, View.ld_unit_zero hoff]

/-- THE OUTPUT BLOCK AFTER THE BODY: at (k, o, n), image k's result at (o, n). -/
theorem out_eq (c : Dev nD) (i : grid0.Coords) (arg1 : Memref sig .tc .vmem S8x384x256 .f32) (harg1 : arg1.IsWhole) (arg2 : Memref sig .tc .vmem S1152x384 .f32) (harg2 : arg2.IsWhole) (arg3 : Memref sig .tc .vmem S1152x1 .f32) (harg3 : arg3.IsWhole) (arg4 : Memref sig .tc .vmem S384x384 .f32) (harg4 : arg4.IsWhole) (arg5 : Memref sig .tc .vmem S384x1 .f32) (harg5 : arg5.IsWhole) (arg6 : Memref sig .tc .vmem S8x384x256 .f32) (harg6 : arg6.IsWhole)
    (x0 : Vec F S8x384x256 .f32) (x1 : Vec F S1152x384 .f32) (x2 : Vec F S1152x1 .f32) (x3 : Vec F S384x384 .f32)
    (x4 : Vec F S384x1 .f32) :
    out0_A_5 c i arg1 harg1 arg2 harg2 arg3 harg3 arg4 harg4 arg5 harg5 arg6 harg6 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (blockOut x0 x1 x2 x3 x4) _ ?_ y (cover0_A_5 c i arg1 harg1 arg2 harg2 arg3 harg3 arg4 harg4 arg5 harg5 arg6 harg6 x0 x1 x2 x3 x4 y)
  unfold kernelRun0_A
  dsimp only
  rw [load_whole arg2 harg2 x1 (by funext a; match a with | ⟨0, _⟩ => rfl | ⟨1, _⟩ => rfl),
    load_whole arg4 harg4 x3 (by funext a; match a with | ⟨0, _⟩ => rfl | ⟨1, _⟩ => rfl),
    load_whole arg3 harg3 x2 (by funext a; match a with | ⟨0, _⟩ => rfl | ⟨1, _⟩ => rfl),
    load_whole arg5 harg5 x4 (by funext a; match a with | ⟨0, _⟩ => rfl | ⟨1, _⟩ => rfl)]
  exact pieces_hold Variants.none c none i arg1 harg1 arg2 harg2 arg3 harg3 arg4 harg4 arg5 harg5 arg6 harg6 x0 x1 x2 x3 x4 _ (Nat.le_refl _)

end Cert.KernelIdeal.Pieces

end
-- ==== Proof.KernelValue.lean ====
/-
  The kernel's result array as the specification of the argument arrays.

  The region's grid has 32 points; point t stages images 8 t … 8 t + 7 of the [256, 384, 256] input and writes
  back the same images of the output, the four weight arrays staged whole. With what the body leaves in its
  output block (image by image, the specification's `attend` of the staged blocks) the written-back blocks tile
  the region's result array, which therefore holds `attend` of every image. The host operations around the region
  are reshapes: the input's two window axes flattened to the token axis, the two bias vectors turned into columns,
  and the result's token axis split back into the window's two.
-/
import proofs.«179321_j18124761989753_1_alg».proof.Proof.KernelPieces
import Idealize.ShloMosaic.Lib.StableHlo.Run

set_option maxRecDepth 16384

noncomputable section

namespace Cert.KernelIdeal.WholeArray

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Trip Cert.KernelIdeal.Pieces Cert.WindowAttention
  Cert.Lib.RowSoftmax

variable (m : (ℓ : Loc nD τ sig) → Buf (Elt Ideal) ℓ) (ρ : Dev nD → PrngReg)

/-! ## The region's result array -/

/-- The region's result array as a function of the arrays the region finds: at (b, o, n), `attend` of image b. -/
def regionOut (c : Dev nD) : S256x384x256.Idx → EReal := fun j =>
  attend (fun o k => (V m c main_arg1 : S1152x384.Idx → EReal) (ix2 o k))
    (fun o => (V m c main_v1 : S1152x1.Idx → EReal) (ix2 o (0 : Fin 1)))
    (fun o k => (V m c main_arg3 : S384x384.Idx → EReal) (ix2 o k))
    (fun o => (V m c main_v2 : S384x1.Idx → EReal) (ix2 o (0 : Fin 1)))
    (fun k n => (V m c main_v0 : S256x384x256.Idx → EReal) (ix3 (n0 := 256) (n1 := 384) (n2 := 256) (j 0) k n)) (j 1) (j 2)

/-- The printed index maps over the grid: point t's input and output blocks start at image block t; the weight
    windows do not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The staged input block at point t: images 8 t … 8 t + 7. -/
theorem iblk0_apply (c : Dev nD) (t : Fin cfg0.N) (b : Fin 8) (k : Fin 384) (n : Fin 256) (i : Fin 256)
    (hi : i.val = 8 * t.val + b.val) :
    (iblk m c 0 t : Vec Ideal S8x384x256 .f32) (ix3 b k n) = (V m c main_v0 : S256x384x256.Idx → EReal) (ix3 i k n) := by
  obtain ⟨e0, e1, e2, -⟩ := idx_facts t
  unfold iblk
  rw [View.read_apply]
  show (V m c main_v0 : S256x384x256.Idx → EReal) _ = _
  congr 1
  funext a
  apply Fin.ext
  match a with
  | ⟨0, _⟩ => show win0_0.index t 0 * 8 + 1 * b.val = i.val; rw [e0, hi]; omega
  | ⟨1, _⟩ => show win0_0.index t 1 * 384 + 1 * k.val = k.val; rw [e1]; omega
  | ⟨2, _⟩ => show win0_0.index t 2 * 256 + 1 * n.val = n.val; rw [e2]; omega

/-- The four weight windows stage their arrays whole. -/
theorem iblk1_apply (c : Dev nD) (t : Fin cfg0.N) (o : Fin 1152) (k : Fin 384) :
    (iblk m c 1 t : Vec Ideal S1152x384 .f32) (ix2 o k) = (V m c main_arg1 : S1152x384.Idx → EReal) (ix2 o k) := by
  obtain ⟨-, -, -, e0, e1, -⟩ := idx_facts t
  unfold iblk
  rw [View.read_apply]
  show (V m c main_arg1 : S1152x384.Idx → EReal) _ = _
  congr 1
  funext a
  apply Fin.ext
  match a with
  | ⟨0, _⟩ => show win0_1.index t 0 * 1152 + 1 * o.val = o.val; rw [e0]; omega
  | ⟨1, _⟩ => show win0_1.index t 1 * 384 + 1 * k.val = k.val; rw [e1]; omega

theorem iblk2_apply (c : Dev nD) (t : Fin cfg0.N) (o : Fin 1152) (u : Fin 1) :
    (iblk m c 2 t : Vec Ideal S1152x1 .f32) (ix2 o u) = (V m c main_v1 : S1152x1.Idx → EReal) (ix2 o u) := by
  obtain ⟨-, -, -, -, -, e0, e1, -⟩ := idx_facts t
  unfold iblk
  rw [View.read_apply]
  show (V m c main_v1 : S1152x1.Idx → EReal) _ = _
  congr 1
  funext a
  apply Fin.ext
  match a with
  | ⟨0, _⟩ => show win0_2.index t 0 * 1152 + 1 * o.val = o.val; rw [e0]; omega
  | ⟨1, _⟩ => show win0_2.index t 1 * 1 + 1 * u.val = u.val; rw [e1]; omega

theorem iblk3_apply (c : Dev nD) (t : Fin cfg0.N) (o : Fin 384) (k : Fin 384) :
    (iblk m c 3 t : Vec Ideal S384x384 .f32) (ix2 o k) = (V m c main_arg3 : S384x384.Idx → EReal) (ix2 o k) := by
  obtain ⟨-, -, -, -, -, -, -, e0, e1, -⟩ := idx_facts t
  unfold iblk
  rw [View.read_apply]
  show (V m c main_arg3 : S384x384.Idx → EReal) _ = _
  congr 1
  funext a
  apply Fin.ext
  match a with
  | ⟨0, _⟩ => show win0_3.index t 0 * 384 + 1 * o.val = o.val; rw [e0]; omega
  | ⟨1, _⟩ => show win0_3.index t 1 * 384 + 1 * k.val = k.val; rw [e1]; omega

theorem iblk4_apply (c : Dev nD) (t : Fin cfg0.N) (o : Fin 384) (u : Fin 1) :
    (iblk m c 4 t : Vec Ideal S384x1 .f32) (ix2 o u) = (V m c main_v2 : S384x1.Idx → EReal) (ix2 o u) := by
  obtain ⟨-, -, -, -, -, -, -, -, -, e0, e1, -⟩ := idx_facts t
  unfold iblk
  rw [View.read_apply]
  show (V m c main_v2 : S384x1.Idx → EReal) _ = _
  congr 1
  funext a
  apply Fin.ext
  match a with
  | ⟨0, _⟩ => show win0_4.index t 0 * 384 + 1 * o.val = o.val; rw [e0]; omega
  | ⟨1, _⟩ => show win0_4.index t 1 * 1 + 1 * u.val = u.val; rw [e1]; omega

/-- WHAT POINT t WRITES BACK is block t of the region's result array. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold outsAt0
  rw [out_eq]
  obtain ⟨-, -, -, -, -, -, -, -, -, -, -, e0, e1, e2⟩ := idx_facts t
  have hN : cfg0.N = 32 := N_0
  have ht : t.val < 32 := hN ▸ t.isLt
  funext y
  obtain ⟨b, o, n, rfl⟩ : ∃ (b : Fin 8) (o : Fin 384) (n : Fin 256), y = ix3 b o n := ⟨y 0, y 1, y 2, eq_ix3 y⟩
  have hemb : ((cfg0.win 5).blk t).view.emb (ix3 b o n)
      = ix3 (n0 := 256) (n1 := 384) (n2 := 256) ⟨8 * t.val + b.val, by have := b.isLt; omega⟩ o n := by
    funext a
    apply Fin.ext
    match a with
    | ⟨0, _⟩ => show win0_5.index t 0 * 8 + 1 * b.val = 8 * t.val + b.val; rw [e0]; omega
    | ⟨1, _⟩ => show win0_5.index t 1 * 384 + 1 * o.val = o.val; rw [e1]; omega
    | ⟨2, _⟩ => show win0_5.index t 2 * 256 + 1 * n.val = n.val; rw [e2]; omega
  show blockOut (iblk m c 0 t) (iblk m c 1 t) (iblk m c 2 t) (iblk m c 3 t) (iblk m c 4 t) (ix3 b o n)
    = regionOut m c (((cfg0.win 5).blk t).view.emb (ix3 b o n))
  rw [hemb]
  unfold blockOut regionOut
  rw [imageOut_apply]
  have key : ∀ (f1 g1 : Fin 1152 → Fin 384 → EReal) (f2 g2 : Fin 1152 → EReal) (f3 g3 : Fin 384 → Fin 384 → EReal)
      (f4 g4 : Fin 384 → EReal) (f5 g5 : Fin 384 → Fin 256 → EReal), f1 = g1 → f2 = g2 → f3 = g3 → f4 = g4 → f5 = g5 →
      attend f1 f2 f3 f4 f5 o n = attend g1 g2 g3 g4 g5 o n := by
    intro f1 g1 f2 g2 f3 g3 f4 g4 f5 g5 h1 h2 h3 h4 h5
    subst h1 h2 h3 h4 h5
    rfl
  exact key _ _ _ _ _ _ _ _ _ _
    (funext fun o' => funext fun k => iblk1_apply m c t o' k)
    (funext fun o' => iblk2_apply m c t o' 0)
    (funext fun o' => funext fun k => iblk3_apply m c t o' k)
    (funext fun o' => iblk4_apply m c t o' 0)
    (funext fun k => funext fun n' => iblk0_apply m c t b k n' ⟨8 * t.val + b.val, by have := b.isLt; omega⟩ rfl)

/-- An index of the result array is in point t's block iff each coordinate is in the block's range on its axis. -/
theorem mem_blk (t : Fin cfg0.N) (i : S256x384x256.Idx) :
    i ∈ ((cfg0.win 5).blk t).view.set ↔ ∀ a : Fin 3, win0_5.index t a * S8x384x256.size a ≤ (i a).val ∧ (i a).val < win0_5.index t a * S8x384x256.size a + S8x384x256.size a := by
  show i ∈ ((View.whole main_v3).slice (win0_5.rect t)).set ↔ _
  rw [View.set_slice_whole, Rect.mem_set_unit]
  exact Iff.rfl

/-- THE RESULT ARRAY after the region: `attend` of every image. -/
theorem final (c : Dev nD) : (dats m 0 c).arrAt 5 cfg0.N = regionOut m c :=
  (dats m 0 c).arrAt_eq_of_cover 5 (regionOut m c) (fun t _ => flushed_eq m c t) fun i => by
    have hN : cfg0.N = 32 := N_0
    have hi0 : (i 0).val < 256 := (i 0).isLt
    have hi1 : (i 1).val < 384 := (i 1).isLt
    have hi2 : (i 2).val < 256 := (i 2).isLt
    refine ⟨⟨(i 0).val / 8, by rw [hN]; omega⟩, flush0_5 _, ?_⟩
    rw [mem_blk]
    obtain ⟨-, -, -, -, -, -, -, -, -, -, -, e0, e1, e2⟩ := idx_facts ⟨(i 0).val / 8, by rw [hN]; omega⟩
    intro a
    match a with
    | ⟨0, _⟩ =>
      show win0_5.index _ (0 : Fin 3) * 8 ≤ (i 0).val ∧ (i 0).val < win0_5.index _ (0 : Fin 3) * 8 + 8
      rw [e0]; show (i 0).val / 8 * 8 ≤ (i 0).val ∧ (i 0).val < (i 0).val / 8 * 8 + 8; omega
    | ⟨1, _⟩ =>
      show win0_5.index _ (1 : Fin 3) * 384 ≤ (i 1).val ∧ (i 1).val < win0_5.index _ (1 : Fin 3) * 384 + 384
      rw [e1]; omega
    | ⟨2, _⟩ =>
      show win0_5.index _ (2 : Fin 3) * 256 ≤ (i 2).val ∧ (i 2).val < win0_5.index _ (2 : Fin 3) * 256 + 256
      rw [e2]; omega

/-! ## The host operations around the region -/

/-- Before the region: the input's two window axes flattened into the token axis, -/
theorem V_main_v0 (c : Dev nD) : (V m c main_v0 : S256x384x256.Idx → EReal)
    = shapeCast S256x384x256 (m ((c : Thread nD τ).loc main_arg0)) shapeCasts_S256x384x16x16_S256x384x256 := by
  show StableHlo.after hostOps0 (fun b => m (c, b)) (Proc.devRef .tc main_v0) = _
  after_results
  rfl

/-- the fused bias as a column, -/
theorem V_main_v1 (c : Dev nD) : (V m c main_v1 : S1152x1.Idx → EReal)
    = shapeCast S1152x1 (m ((c : Thread nD τ).loc main_arg2)) shapeCasts_S1152_S1152x1 := by
  show StableHlo.after hostOps0 (fun b => m (c, b)) (Proc.devRef .tc main_v1) = _
  after_results
  rfl

/-- and the output bias as a column. -/
theorem V_main_v2 (c : Dev nD) : (V m c main_v2 : S384x1.Idx → EReal)
    = shapeCast S384x1 (m ((c : Thread nD τ).loc main_arg4)) shapeCasts_S384_S384x1 := by
  show StableHlo.after hostOps0 (fun b => m (c, b)) (Proc.devRef .tc main_v2) = _
  after_results
  rfl

/-- After the region: the result's token axis split back into the window's two axes. -/
theorem tail_eq (c : Dev nD) : Pipeline.afterTail₀ cfgs (dats m) 0 (V0 m) [hostOps1] c main_v4
    = shapeCast S256x384x16x16 (regionOut m c) shapeCasts_S256x384x256_S256x384x16x16 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = regionOut m c :=
    (Pipeline.withArrays_arr spec0 launch0.win.arr_inj c _ _ 5).trans (final m c)
  rw [hw]
  rfl

/-- The region's result with its token axis split is the specification of the five argument arrays. -/
theorem split_eq (c : Dev nD) :
    shapeCast S256x384x16x16 (regionOut m c) shapeCasts_S256x384x256_S256x384x16x16
      = result (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, o, r, w, rfl⟩ : ∃ (b : Fin 256) (o : Fin 384) (r w : Fin 16), i = ix4 b o r w := ⟨i 0, i 1, i 2, i 3, eq_ix4 i⟩
  rw [shapeCast_apply (regionOut m c) shapeCasts_S256x384x256_S256x384x16x16 (ix4 b o r w) (ix3 b o (token r w)) (by
    rw [Shape.rowMajor_val_three, Shape.rowMajor_val_four]
    show (b.val * 384 + o.val) * 256 + (16 * r.val + w.val) = ((b.val * 384 + o.val) * 16 + r.val) * 16 + w.val
    omega)]
  have key : ∀ (f1 g1 : Fin 1152 → Fin 384 → EReal) (f2 g2 : Fin 1152 → EReal) (f3 g3 : Fin 384 → Fin 384 → EReal)
      (f4 g4 : Fin 384 → EReal) (f5 g5 : Fin 384 → Fin 256 → EReal), f1 = g1 → f2 = g2 → f3 = g3 → f4 = g4 → f5 = g5 →
      attend f1 f2 f3 f4 f5 o (token r w) = attend g1 g2 g3 g4 g5 o (token r w) := by
    intro f1 g1 f2 g2 f3 g3 f4 g4 f5 g5 h1 h2 h3 h4 h5
    subst h1 h2 h3 h4 h5
    rfl
  unfold regionOut result
  refine key _ _ _ _ _ _ _ _ _ _ ?_ ?_ ?_ ?_ ?_
  · funext o' k; rw [V_main_arg1]
  · funext o'; rw [V_main_v1]; exact shapeCast_a_a1_apply _ shapeCasts_S1152_S1152x1 o' 0
  · funext o' k; rw [V_main_arg3]
  · funext o'; rw [V_main_v2]; exact shapeCast_a_a1_apply _ shapeCasts_S384_S384x1 o' 0
  · funext k n
    rw [V_main_v0]
    unfold image
    exact shapeCast_apply _ shapeCasts_S256x384x16x16_S256x384x256 (ix3 b k n)
      (ix4 b k ⟨n.val / 16, by omega⟩ ⟨n.val % 16, Nat.mod_lt _ (by omega)⟩) (by
        rw [Shape.rowMajor_val_four, Shape.rowMajor_val_three]
        show ((b.val * 384 + k.val) * 16 + n.val / 16) * 16 + n.val % 16 = (b.val * 384 + k.val) * 256 + n.val
        omega)

/-! ## The run, read -/

/-- The kernel's run: every weakly fair execution terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4)) :=
  (θ_run defs _ _).mono (fun _ h c =>
    ⟨(((h c).2 main_v4 (Pipeline.mem_restRefs_of main_v4 (by decide) (by decide))).trans (tail_eq m c)).trans (split_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.WholeArray

end
-- ==== Proof.RefProj.lean ====
import proofs.«179321_j18124761989753_1_alg».proof.Proof.Gen.ReferenceIdeal.Read
import proofs.«179321_j18124761989753_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.WindowAttention Cert.Lib.RowSoftmax

/-- The five argument arrays' types. -/
abbrev X0 := (⟨S256x384x16x16, .f32⟩ : BufTy).Contents (Elt Ideal)
abbrev X1 := (⟨S1152x384, .f32⟩ : BufTy).Contents (Elt Ideal)
abbrev X2 := (⟨S1152, .f32⟩ : BufTy).Contents (Elt Ideal)
abbrev X3 := (⟨S384x384, .f32⟩ : BufTy).Contents (Elt Ideal)
abbrev X4 := (⟨S384, .f32⟩ : BufTy).Contents (Elt Ideal)

/-- The fused projection of image `b`, from the argument arrays. -/
abbrev P (x0 : X0) (x1 : X1) (x2 : X2) (b : Fin 256) : Fin 1152 → Fin 256 → EReal :=
  proj (fun o c => x1 (ix2 o c)) (fun o => x2 (ix1 o)) (image x0 b)

/-- The flattened and transposed image: entry (b, n, c) is channel `c` of image `b` at token `n`. -/
theorem v1_apply (x0 : X0) (b : Fin 256) (n : Fin 256) (c : Fin 384) :
    val_main_v1 (F := Ideal) x0 (ix3 b n c) = image x0 b c n := by
  have e1 : idx_main_v1 (ix3 b n c) = ix3 b c n := funext fun a => Fin.ext (by
    match a with
    | ⟨0, _⟩ => rfl
    | ⟨1, _⟩ => rfl
    | ⟨2, _⟩ => rfl)
  have e0 : idx_main_v0 (ix3 b c n)
      = ix4 b c (⟨n.val / 16, by omega⟩ : Fin 16) (⟨n.val % 16, Nat.mod_lt _ (by omega)⟩ : Fin 16) :=
    funext fun a => Fin.ext (by
      have hb := b.isLt; have hc := c.isLt; have hn := n.isLt
      match a with
      | ⟨0, _⟩ => show ((b.val * 384 + c.val) * 256 + n.val) / 98304 = b.val; omega
      | ⟨1, _⟩ => show ((b.val * 384 + c.val) * 256 + n.val) / 256 % 384 = c.val; omega
      | ⟨2, _⟩ => show ((b.val * 384 + c.val) * 256 + n.val) / 16 % 16 = n.val / 16; omega
      | ⟨3, _⟩ => show ((b.val * 384 + c.val) * 256 + n.val) % 16 = n.val % 16; omega)
  rw [val_main_v1_apply, e1, val_main_v0_apply, e0]
  rfl

/-- The fused projection with its bias: entry (b, n, o) is row `o` of image `b`'s projection at token `n`. -/
theorem v5_apply (x0 : X0) (x1 : X1) (x2 : X2) (b : Fin 256) (n : Fin 256) (o : Fin 1152) :
    val_main_v5 (F := Ideal) x0 x1 x2 (ix3 b n o) = P x0 x1 x2 b o n := by
  have el : ∀ k : Fin 384, lidx_main_v2 (ix3 b n o) k = ix3 b n k := fun k => funext fun a => Fin.ext (by
    match a with
    | ⟨0, _⟩ => rfl
    | ⟨1, _⟩ => rfl
    | ⟨2, _⟩ => rfl)
  have er : ∀ k : Fin 384, ridx_main_v2 (ix3 b n o) k = ix2 o k := fun k => funext fun a => Fin.ext (by
    match a with
    | ⟨0, _⟩ => rfl
    | ⟨1, _⟩ => rfl)
  have e4 : idx_main_v3 (idx_main_v4 (ix3 b n o)) = ix1 o := funext fun a => Fin.ext (by
    match a with
    | ⟨0, _⟩ => rfl)
  rw [val_main_v5_apply, val_main_v2_apply, val_main_v4_apply, val_main_v3_apply, e4, Ideal.addf_def]
  show _ = (∑ c : Fin 384, x1 (ix2 o c) * image x0 b c n) + x2 (ix1 o)
  refine congrArg (· + x2 (ix1 o)) (Finset.sum_congr rfl fun k _ => ?_)
  rw [el k, er k, v1_apply, mul_comm]

end Cert.ReferenceIdeal.RefValue

end
-- ==== Proof.RefHeads.lean ====
import proofs.«179321_j18124761989753_1_alg».proof.Proof.RefProj

noncomputable section

namespace Cert.ReferenceIdeal.RefValue

open Cert.ReferenceIdeal Cert.ReferenceIdeal.Gen Cert.ReferenceIdeal.Read Idealize.ShloMosaic Idealize.ShloMosaic.ValueIdx
open Cert.WindowAttention Cert.Lib.RowSoftmax

/-- The projection split into sections, heads and features: entry (s, b, h, n, d) is row `384 s + 32 h + d` of
    image `b`'s projection at token `n`. -/
theorem v7_apply (x0 : X0) (x1 : X1) (x2 : X2) (s : Fin 3) (b : Fin 256) (h : Fin 12) (n : Fin 256) (d : Fin 32) :
    val_main_v7 (F := Ideal) x0 x1 x2 (ix5 s b h n d) = P x0 x1 x2 b (row s h d) n := by
  have e7 : idx_main_v7 (ix5 s b h n d) = ix5 b n s h d := funext fun a => Fin.ext (by
    match a with
    | ⟨0, _⟩ => rfl
    | ⟨1, _⟩ => rfl
    | ⟨2, _⟩ => rfl
    | ⟨3, _⟩ => rfl
    | ⟨4, _⟩ => rfl)
  have e6 : idx_main_v6 (ix5 b n s h d) = ix3 b n (row s h d) := funext fun a => Fin.ext (by
    have hb := b.isLt; have hn := n.isLt; have hs := s.isLt; have hh := h.isLt; have hd := d.isLt
    match a with
    | ⟨0, _⟩ => show ((((b.val * 256 + n.val) * 3 + s.val) * 12 + h.val) * 32 + d.val) / 294912 = b.val; omega
    | ⟨1, _⟩ => show ((((b.val * 256 + n.val) * 3 + s.val) * 12 + h.val) * 32 + d.val) / 1152 % 256 = n.val; omega
    | ⟨2, _⟩ =>
      show ((((b.val * 256 + n.val) * 3 + s.val) * 12 + h.val) * 32 + d.val) % 1152 = 384 * s.val + 32 * h.val + d.val
      omega)
  rw [val_main_v7_apply, e7, val_main_v6_apply, e6, v5_apply]

/-- Dropping the unit section axis keeps the other four coordinates. -/
theorem idx_drop_unit (b : Fin 256) (h : Fin 12) (n : Fin 256) (d : Fin 32) :
    idx_main_v9 (ix4 b h n d) = ix5 (0 : Fin 1) b h n d := funext fun a => Fin.ext (by
  have hb := b.isLt; have hh := h.isLt; have hn := n.isLt; have hd := d.isLt
  match a with
  | ⟨0, _⟩ => rfl
  | ⟨1, _⟩ => show (((b.val * 12 + h.val) * 256 + n.val) * 32 + d.val) / 98304 % 256 = b.val; omega
  | ⟨2, _⟩ => show (((b.val * 12 + h.val) * 256 + n.val) * 32 + d.val) / 8192 % 12 = h.val; omega
  | ⟨3, _⟩ => show (((b.val * 12 + h.val) * 256 + n.val) * 32 + d.val) / 32 % 256 = n.val; omega
  | ⟨4, _⟩ => show (((b.val * 12 + h.val) * 256 + n.val) * 32 + d.val) % 32 = d.val; omega)

/-- The queries: entry (b, h, n, d) is row (0, h, d) of image `b`'s projection at token `n`. -/
theorem v9_apply (x0 : X0) (x1 : X1) (x2 : X2) (b : Fin 256) (h : Fin 12) (n : Fin 256) (d : Fin 32) :
    val_main_v9 (F := Ideal) x0 x1 x2 (ix4 b h n d) = P x0 x1 x2 b (row 0 h d) n := by
  have e8 : idx_main_v8 (ix5 (0 : Fin 1) b h n d) = ix5 (0 : Fin 3) b h n d := funext fun a => Fin.ext (by
    match a with
    | ⟨0, _⟩ => rfl
    | ⟨1, _⟩ => rfl
    | ⟨2, _⟩ => rfl
    | ⟨3, _⟩ => rfl
    | ⟨4, _⟩ => rfl)
  rw [val_main_v9_apply, idx_drop_unit, val_main_v8_apply, e8, v7_apply]

/-- The keys: entry (b, h, n, d) is row (1, h, d) of image `b`'s projection at token `n`. -/
theorem v11_apply (x0 : X0) (x1 : X1) (x2 : X2) (b : Fin 256) (h : Fin 12) (n : Fin 256) (d : Fin 32) :
    val_main_v11 (F := Ideal) x0 x1 x2 (ix4 b h n d) = P x0 x1 x2 b (row 1 h d) n := by
  have e9 : idx_main_v11 (ix4 b h n d) = ix5 (0 : Fin 1) b h n d := idx_drop_unit b h n d
  have e8 : idx_main_v10 (ix5 (0 : Fin 1) b h n d) = ix5 (1 : Fin 3) b h n d := funext fun a => Fin.ext (by
    match a with
    | ⟨0, _⟩ => rfl
    | ⟨1, _⟩ => rfl
    | ⟨2, _⟩ => rfl
    | ⟨3, _⟩ => rfl
    | ⟨4, _⟩ => rfl)
  rw [val_main_v11_apply, e9, val_main_v10_apply, e8, v7_apply]

/-- The values: entry (b, h, n, d) is row (2, h, d) of image `b`'s projection at token `n`. -/
theorem v13_apply (x0 : X0) (x1 : X1) (x2 : X2) (b : Fin 256) (h : Fin 12) (n : Fin 256) (d : Fin 32) :
    val_main_v13 (F := Ideal) x0 x1 x2 (ix4 b h n d) = P x0 x1 x2 b (row 2 h d) n := by
  have e9 : idx_main_v13 (ix4 b h n d) = ix5 (0 : Fin 1) b h n d := idx_drop_unit b h n d
  have e8 : idx_main_v12 (ix5 (0 : Fin 1) b h n d) = ix5 (2 : Fin 3) b h n d := funext fun a => Fin.ext (by
    match a with
    | ⟨0, _⟩ => rfl
    | ⟨1, _⟩ => rfl
    | ⟨2, _⟩ => rfl
    | ⟨3, _⟩ => rfl
    | ⟨4, _⟩ => rfl)
  rw [val_main_v13_apply, e9, val_main_v12_apply, e8, v7_apply]

end Cert.ReferenceIdeal.RefValue

end
-- ==== Proof.RefUnit.lean ====
import proofs.«179321_j18124761989753_1_alg».proof.Proof.RefHeads

noncomputable section

namespace Cert.ReferenceIdeal.RefValue

open Cert.ReferenceIdeal Cert.ReferenceIdeal.Gen Cert.ReferenceIdeal.Read Idealize.ShloMosaic Idealize.ShloMosaic.ValueIdx
open Cert.WindowAttention Cert.Lib.RowSoftmax

/-- The normalised queries: entry (b, h, n, d) is feature `d` of token `n`'s query in head `h`, divided by the larger of its length and the floor. -/
theorem v21_apply (x0 : X0) (x1 : X1) (x2 : X2) (b : Fin 256) (h : Fin 12) (n : Fin 256) (d : Fin 32) :
    val_main_v21 (F := Ideal) x0 x1 x2 (ix4 b h n d) = unitVec (fun e => P x0 x1 x2 b (row 0 h e) n) d := by
  have e20 : idx_main_v20 (ix4 b h n d) = ix4 b h n (0 : Fin 1) := funext fun a => Fin.ext (by
    match a with
    | ⟨0, _⟩ => rfl
    | ⟨1, _⟩ => rfl
    | ⟨2, _⟩ => rfl
    | ⟨3, _⟩ => rfl)
  have e16 : idx_main_v16 (ix4 b h n (0 : Fin 1)) = ix3 b h n := funext fun a => Fin.ext (by
    match a with
    | ⟨0, _⟩ => rfl
    | ⟨1, _⟩ => rfl
    | ⟨2, _⟩ => rfl)
  have e15 : ∀ k : Fin 32, idx_main_v15 (ix3 b h n) k = ix4 b h n k := fun k => funext fun a => Fin.ext (by
    match a with
    | ⟨0, _⟩ => rfl
    | ⟨1, _⟩ => rfl
    | ⟨2, _⟩ => rfl
    | ⟨3, _⟩ => rfl)
  have hsum : val_main_v15 (F := Ideal) x0 x1 x2 (ix3 b h n)
      = ∑ e : Fin 32, P x0 x1 x2 b (row 0 h e) n * P x0 x1 x2 b (row 0 h e) n := by
    rw [val_main_v15_apply, val_main_cst_apply, Ideal.ofBits_def, Ideal.ofBits_zero_f32, zero_add]
    refine Finset.sum_congr rfl fun k _ => ?_
    rw [e15 k, val_main_v14_apply, v9_apply, Ideal.mulf_def]
  rw [val_main_v21_apply, v9_apply, val_main_v20_apply, e20, val_main_v19_apply, val_main_v17_apply,
    val_main_v16_apply, e16, hsum, val_main_v18_apply, val_main_cst_0_apply]
  rfl

/-- The normalised keys: entry (b, h, n, d) is feature `d` of token `n`'s key in head `h`, divided by the larger of its length and the floor. -/
theorem v29_apply (x0 : X0) (x1 : X1) (x2 : X2) (b : Fin 256) (h : Fin 12) (n : Fin 256) (d : Fin 32) :
    val_main_v29 (F := Ideal) x0 x1 x2 (ix4 b h n d) = unitVec (fun e => P x0 x1 x2 b (row 1 h e) n) d := by
  have e20 : idx_main_v28 (ix4 b h n d) = ix4 b h n (0 : Fin 1) := funext fun a => Fin.ext (by
    match a with
    | ⟨0, _⟩ => rfl
    | ⟨1, _⟩ => rfl
    | ⟨2, _⟩ => rfl
    | ⟨3, _⟩ => rfl)
  have e16 : idx_main_v24 (ix4 b h n (0 : Fin 1)) = ix3 b h n := funext fun a => Fin.ext (by
    match a with
    | ⟨0, _⟩ => rfl
    | ⟨1, _⟩ => rfl
    | ⟨2, _⟩ => rfl)
  have e15 : ∀ k : Fin 32, idx_main_v23 (ix3 b h n) k = ix4 b h n k := fun k => funext fun a => Fin.ext (by
    match a with
    | ⟨0, _⟩ => rfl
    | ⟨1, _⟩ => rfl
    | ⟨2, _⟩ => rfl
    | ⟨3, _⟩ => rfl)
  have hsum : val_main_v23 (F := Ideal) x0 x1 x2 (ix3 b h n)
      = ∑ e : Fin 32, P x0 x1 x2 b (row 1 h e) n * P x0 x1 x2 b (row 1 h e) n := by
    rw [val_main_v23_apply, val_main_cst_1_apply, Ideal.ofBits_def, Ideal.ofBits_zero_f32, zero_add]
    refine Finset.sum_congr rfl fun k _ => ?_
    rw [e15 k, val_main_v22_apply, v11_apply, Ideal.mulf_def]
  rw [val_main_v29_apply, v11_apply, val_main_v28_apply, e20, val_main_v27_apply, val_main_v25_apply,
    val_main_v24_apply, e16, hsum, val_main_v26_apply, val_main_cst_2_apply]
  rfl

end Cert.ReferenceIdeal.RefValue

end
-- ==== Proof.RefLogits.lean ====
import proofs.«179321_j18124761989753_1_alg».proof.Proof.RefUnit

noncomputable section

namespace Cert.ReferenceIdeal.RefValue

open Cert.ReferenceIdeal Cert.ReferenceIdeal.Gen Cert.ReferenceIdeal.Read Idealize.ShloMosaic Idealize.ShloMosaic.ValueIdx
open Cert.WindowAttention Cert.Lib.RowSoftmax

/-- The scaled logits: entry (b, h, n, m) is the logit of query token `n` against key token `m` in head `h`. -/
theorem v32_apply (x0 : X0) (x1 : X1) (x2 : X2) (b : Fin 256) (h : Fin 12) (n m : Fin 256) :
    val_main_v32 (F := Ideal) x0 x1 x2 (ix4 b h n m) = logits (P x0 x1 x2 b) h n m := by
  have el : ∀ k : Fin 32, lidx_main_v30 (ix4 b h n m) k = ix4 b h n k := fun k => funext fun a => Fin.ext (by
    match a with
    | ⟨0, _⟩ => rfl
    | ⟨1, _⟩ => rfl
    | ⟨2, _⟩ => rfl
    | ⟨3, _⟩ => rfl)
  have er : ∀ k : Fin 32, ridx_main_v30 (ix4 b h n m) k = ix4 b h m k := fun k => funext fun a => Fin.ext (by
    match a with
    | ⟨0, _⟩ => rfl
    | ⟨1, _⟩ => rfl
    | ⟨2, _⟩ => rfl
    | ⟨3, _⟩ => rfl)
  rw [val_main_v32_apply, val_main_v30_apply, val_main_v31_apply, val_main_cst_3_apply, Ideal.mulf_def]
  show _ = (∑ d : Fin 32, unitVec (fun e => P x0 x1 x2 b (row 0 h e) n) d
      * unitVec (fun e => P x0 x1 x2 b (row 1 h e) m) d) * logitScale
  refine congrArg (· * logitScale) (Finset.sum_congr rfl fun k _ => ?_)
  rw [el k, er k, v21_apply, v29_apply]

/-- The index over (b, h, n) with key token `m` inserted on the last axis is (b, h, n, m). -/
theorem lift_last (hR : S256x12x256x256.Reduces [3] S256x12x256) (b : Fin 256) (h : Fin 12) (n m : Fin 256) :
    hR.lift (ix3 b h n) m = ix4 b h n m := by
  funext c; apply Fin.ext
  match c with
  | ⟨0, _⟩ => rfl
  | ⟨1, _⟩ => rfl
  | ⟨2, _⟩ => rfl
  | ⟨3, _⟩ => rfl

/-- A maximum over the key axis started from `-∞`, read at (b, h, n): the maximum of that row. -/
theorem rowMax_apply (x : S256x12x256x256.Idx → EReal) (init : S_.Idx → EReal) (hinit : ∀ i, init i = negInf)
    (b : Fin 256) (h : Fin 12) (n : Fin 256) :
    Host.reduce (FloatOps.maximumf (F := Ideal) (φ := .f32)) x init reducesTo_S256x12x256x256_S256x12x256_d3 h_S_
        (ix3 b h n)
      = maxOf (fun m : Fin 256 => x (ix4 b h n m)) := by
  have hR : S256x12x256x256.Reduces [3] S256x12x256 := by decide
  rw [Host.reduce_eq_fold_single (FloatOps.maximumf (F := Ideal) (φ := .f32)) x init
    reducesTo_S256x12x256x256_S256x12x256_d3 hR h_S_ (ix3 b h n), hinit]
  have hx : (x ∘ hR.lift (ix3 b h n)) = fun m : Fin 256 => x (ix4 b h n m) :=
    funext fun m => congrArg x (lift_last hR b h n m)
  rw [hx]
  rfl

end Cert.ReferenceIdeal.RefValue

end
-- ==== Proof.RefSoftmax.lean ====
import proofs.«179321_j18124761989753_1_alg».proof.Proof.RefLogits

noncomputable section

namespace Cert.ReferenceIdeal.RefValue

open Cert.ReferenceIdeal Cert.ReferenceIdeal.Gen Cert.ReferenceIdeal.Read Idealize.ShloMosaic Idealize.ShloMosaic.ValueIdx
open Cert.WindowAttention Cert.Lib.RowSoftmax

/-- A per-row statistic kept as a unit column and spread back over the key axis reads, at (b, h, n, m), the statistic
    of row (b, h, n): the two index maps composed. -/
theorem idx_keep_spread (b : Fin 256) (h : Fin 12) (n m : Fin 256) :
    idx_main_v34 (idx_main_v35 (ix4 b h n m)) = ix3 b h n := funext fun a => Fin.ext (by
    match a with
    | ⟨0, _⟩ => rfl
    | ⟨1, _⟩ => rfl
    | ⟨2, _⟩ => rfl)

/-- The row maximum of the logits: entry (b, h, n). -/
theorem v33_apply (x0 : X0) (x1 : X1) (x2 : X2) (b : Fin 256) (h : Fin 12) (n : Fin 256) :
    val_main_v33 (F := Ideal) x0 x1 x2 (ix3 b h n) = maxOf (logits (P x0 x1 x2 b) h n) := by
  unfold val_main_v33
  exact (rowMax_apply (val_main_v32 (F := Ideal) x0 x1 x2) (val_main_cst_4 (F := Ideal)) (fun _ => rfl) b h n).trans
    (congrArg maxOf (funext fun m => v32_apply x0 x1 x2 b h n m))

/-- The logits minus their row maximum: entry (b, h, n, m). -/
theorem v36_apply (x0 : X0) (x1 : X1) (x2 : X2) (b : Fin 256) (h : Fin 12) (n m : Fin 256) :
    val_main_v36 (F := Ideal) x0 x1 x2 (ix4 b h n m) = shifted (logits (P x0 x1 x2 b) h n) m := by
  rw [val_main_v36_apply, v32_apply, val_main_v35_apply, val_main_v34_apply, idx_keep_spread, v33_apply,
    Ideal.subf_def]
  rfl

/-- The row maximum of the shifted logits: entry (b, h, n). -/
theorem v37_apply (x0 : X0) (x1 : X1) (x2 : X2) (b : Fin 256) (h : Fin 12) (n : Fin 256) :
    val_main_v37 (F := Ideal) x0 x1 x2 (ix3 b h n) = maxOf (shifted (logits (P x0 x1 x2 b) h n)) := by
  unfold val_main_v37
  exact (rowMax_apply (val_main_v36 (F := Ideal) x0 x1 x2) (val_main_cst_5 (F := Ideal)) (fun _ => rfl) b h n).trans
    (congrArg maxOf (funext fun m => v36_apply x0 x1 x2 b h n m))

/-- Taking the maximum with `-∞` once more leaves the row maximum as it is. -/
theorem v39_apply (x0 : X0) (x1 : X1) (x2 : X2) (b : Fin 256) (h : Fin 12) (n : Fin 256) :
    val_main_v39 (F := Ideal) x0 x1 x2 (ix3 b h n) = maxOf (shifted (logits (P x0 x1 x2 b) h n)) := by
  rw [val_main_v39_apply, v37_apply, val_main_v38_apply, val_main_cst_6_apply, Ideal.maximumf_def]
  exact max_negInf_maxOf _

/-- The unnormalised soft-max weights: entry (b, h, n, m). -/
theorem v43_apply (x0 : X0) (x1 : X1) (x2 : X2) (b : Fin 256) (h : Fin 12) (n m : Fin 256) :
    val_main_v43 (F := Ideal) x0 x1 x2 (ix4 b h n m) = weightOf (shifted (logits (P x0 x1 x2 b) h n)) m := by
  have e : idx_main_v40 (idx_main_v41 (ix4 b h n m)) = ix3 b h n := funext fun a => Fin.ext (by
    match a with
    | ⟨0, _⟩ => rfl
    | ⟨1, _⟩ => rfl
    | ⟨2, _⟩ => rfl)
  rw [val_main_v43_apply, val_main_v42_apply, v36_apply, val_main_v41_apply, val_main_v40_apply, e, v39_apply,
    Ideal.subf_def, Ideal.hostUnary_exp_def]
  rfl

/-- The row sums of the weights: entry (b, h, n). -/
theorem v44_apply (x0 : X0) (x1 : X1) (x2 : X2) (b : Fin 256) (h : Fin 12) (n : Fin 256) :
    val_main_v44 (F := Ideal) x0 x1 x2 (ix3 b h n)
      = ∑ m : Fin 256, weightOf (shifted (logits (P x0 x1 x2 b) h n)) m := by
  have e : ∀ k : Fin 256, idx_main_v44 (ix3 b h n) k = ix4 b h n k := fun k => funext fun a => Fin.ext (by
    match a with
    | ⟨0, _⟩ => rfl
    | ⟨1, _⟩ => rfl
    | ⟨2, _⟩ => rfl
    | ⟨3, _⟩ => rfl)
  rw [val_main_v44_apply, val_main_cst_7_apply, Ideal.ofBits_def, Ideal.ofBits_zero_f32, zero_add]
  refine Finset.sum_congr rfl fun k _ => ?_
  rw [e k, v43_apply]

/-- The soft-max of the shifted logits: entry (b, h, n, m). -/
theorem v47_apply (x0 : X0) (x1 : X1) (x2 : X2) (b : Fin 256) (h : Fin 12) (n m : Fin 256) :
    val_main_v47 (F := Ideal) x0 x1 x2 (ix4 b h n m) = softmaxOf (shifted (logits (P x0 x1 x2 b) h n)) m := by
  have e : idx_main_v45 (idx_main_v46 (ix4 b h n m)) = ix3 b h n := funext fun a => Fin.ext (by
    match a with
    | ⟨0, _⟩ => rfl
    | ⟨1, _⟩ => rfl
    | ⟨2, _⟩ => rfl)
  rw [val_main_v47_apply, v43_apply, val_main_v46_apply, val_main_v45_apply, e, v44_apply, Ideal.hostDivf_def]
  rfl

/-- The clipped attention weights: entry (b, h, n, m). -/
theorem v48_apply (x0 : X0) (x1 : X1) (x2 : X2) (b : Fin 256) (h : Fin 12) (n m : Fin 256) :
    val_main_v48 (F := Ideal) x0 x1 x2 (ix4 b h n m) = weight (logits (P x0 x1 x2 b) h n) m := by
  rw [val_main_v48_apply, val_main_call0_v2_apply, v47_apply, val_main_call0_v4_apply, val_main_call0_v3_apply,
    val_main_cst_9_apply, val_main_call0_v1_apply, val_main_call0_v0_apply, val_main_cst_8_apply,
    Ideal.minimumf_def, Ideal.maximumf_def]
  rfl

end Cert.ReferenceIdeal.RefValue

end
-- ==== Proof.RefValue.lean ====
import proofs.«179321_j18124761989753_1_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx
open Cert.WindowAttention Cert.Lib.RowSoftmax

/-- The heads' outputs: entry (b, h, n, d) is head `h`'s output at token `n`, feature `d`. -/
theorem v49_apply (x0 : X0) (x1 : X1) (x2 : X2) (b : Fin 256) (h : Fin 12) (n : Fin 256) (d : Fin 32) :
    val_main_v49 (F := Ideal) x0 x1 x2 (ix4 b h n d) = headOut (P x0 x1 x2 b) h n d := by
  have el : ∀ k : Fin 256, lidx_main_v49 (ix4 b h n d) k = ix4 b h n k := fun k => funext fun a => Fin.ext (by
    match a with
    | ⟨0, _⟩ => rfl
    | ⟨1, _⟩ => rfl
    | ⟨2, _⟩ => rfl
    | ⟨3, _⟩ => rfl)
  have er : ∀ k : Fin 256, ridx_main_v49 (ix4 b h n d) k = ix4 b h k d := fun k => funext fun a => Fin.ext (by
    match a with
    | ⟨0, _⟩ => rfl
    | ⟨1, _⟩ => rfl
    | ⟨2, _⟩ => rfl
    | ⟨3, _⟩ => rfl)
  rw [val_main_v49_apply]
  show _ = ∑ m : Fin 256, weight (logits (P x0 x1 x2 b) h n) m * P x0 x1 x2 b (row 2 h d) m
  refine Finset.sum_congr rfl fun k _ => ?_
  rw [el k, er k, v48_apply, v13_apply]

/-- The heads' outputs side by side: entry (b, n, c) is column `c` of token `n`'s concatenated output. -/
theorem v51_apply (x0 : X0) (x1 : X1) (x2 : X2) (b : Fin 256) (n : Fin 256) (c : Fin 384) :
    val_main_v51 (F := Ideal) x0 x1 x2 (ix3 b n c) = headOut (P x0 x1 x2 b) (headOf c) n (featOf c) := by
  have e51 : idx_main_v51 (ix3 b n c) = ix4 b n (headOf c) (featOf c) := funext fun a => Fin.ext (by
    have hb := b.isLt; have hn := n.isLt; have hc := c.isLt
    match a with
    | ⟨0, _⟩ => show ((b.val * 256 + n.val) * 384 + c.val) / 98304 = b.val; omega
    | ⟨1, _⟩ => show ((b.val * 256 + n.val) * 384 + c.val) / 384 % 256 = n.val; omega
    | ⟨2, _⟩ => show ((b.val * 256 + n.val) * 384 + c.val) / 32 % 12 = c.val / 32; omega
    | ⟨3, _⟩ => show ((b.val * 256 + n.val) * 384 + c.val) % 32 = c.val % 32; omega)
  have e50 : idx_main_v50 (ix4 b n (headOf c) (featOf c)) = ix4 b (headOf c) n (featOf c) :=
    funext fun a => Fin.ext (by
    match a with
    | ⟨0, _⟩ => rfl
    | ⟨1, _⟩ => rfl
    | ⟨2, _⟩ => rfl
    | ⟨3, _⟩ => rfl)
  rw [val_main_v51_apply, e51, val_main_v50_apply, e50, v49_apply]

/-- The output projection with its bias: entry (b, n, o) is output channel `o` of image `b` at token `n`. -/
theorem v55_apply (x0 : X0) (x1 : X1) (x2 : X2) (x3 : X3) (x4 : X4) (b : Fin 256) (n : Fin 256) (o : Fin 384) :
    val_main_v55 (F := Ideal) x0 x1 x2 x3 x4 (ix3 b n o)
      = attend (fun o c => x1 (ix2 o c)) (fun o => x2 (ix1 o)) (fun o c => x3 (ix2 o c)) (fun o => x4 (ix1 o))
          (image x0 b) o n := by
  have el : ∀ k : Fin 384, lidx_main_v52 (ix3 b n o) k = ix3 b n k := fun k => funext fun a => Fin.ext (by
    match a with
    | ⟨0, _⟩ => rfl
    | ⟨1, _⟩ => rfl
    | ⟨2, _⟩ => rfl)
  have er : ∀ k : Fin 384, ridx_main_v52 (ix3 b n o) k = ix2 o k := fun k => funext fun a => Fin.ext (by
    match a with
    | ⟨0, _⟩ => rfl
    | ⟨1, _⟩ => rfl)
  have e54 : idx_main_v53 (idx_main_v54 (ix3 b n o)) = ix1 o := funext fun a => Fin.ext (by
    match a with
    | ⟨0, _⟩ => rfl)
  rw [val_main_v55_apply, val_main_v52_apply, val_main_v54_apply, val_main_v53_apply, e54, Ideal.addf_def]
  show _ = (∑ c : Fin 384, x3 (ix2 o c) * headOut (P x0 x1 x2 b) (headOf c) n (featOf c)) + x4 (ix1 o)
  refine congrArg (· + x4 (ix1 o)) (Finset.sum_congr rfl fun k _ => ?_)
  rw [el k, er k, v51_apply, mul_comm]

/-- The result array: entry (b, o, r, w) is output channel `o` of image `b` at the token of window position (r, w). -/
theorem v57_apply (x0 : X0) (x1 : X1) (x2 : X2) (x3 : X3) (x4 : X4) (b : Fin 256) (o : Fin 384) (r w : Fin 16) :
    val_main_v57 (F := Ideal) x0 x1 x2 x3 x4 (ix4 b o r w)
      = attend (fun o c => x1 (ix2 o c)) (fun o => x2 (ix1 o)) (fun o c => x3 (ix2 o c)) (fun o => x4 (ix1 o))
          (image x0 b) o (token r w) := by
  have e57 : idx_main_v57 (ix4 b o r w) = ix3 b o (token r w) := funext fun a => Fin.ext (by
    have hb := b.isLt; have ho := o.isLt; have hr := r.isLt; have hw := w.isLt
    match a with
    | ⟨0, _⟩ => show (((b.val * 384 + o.val) * 16 + r.val) * 16 + w.val) / 98304 = b.val; omega
    | ⟨1, _⟩ => show (((b.val * 384 + o.val) * 16 + r.val) * 16 + w.val) / 256 % 384 = o.val; omega
    | ⟨2, _⟩ => show (((b.val * 384 + o.val) * 16 + r.val) * 16 + w.val) % 256 = 16 * r.val + w.val; omega)
  have e56 : idx_main_v56 (ix3 b o (token r w)) = ix3 b (token r w) o := funext fun a => Fin.ext (by
    match a with
    | ⟨0, _⟩ => rfl
    | ⟨1, _⟩ => rfl
    | ⟨2, _⟩ => rfl)
  rw [val_main_v57_apply, e57, val_main_v56_apply, e56, v55_apply]

/-- The reference program's result is the window-attention function of its five arguments. -/
theorem result_eq (x0 : (⟨Cert.ReferenceIdeal.S256x384x16x16, .f32⟩ : BufTy).Contents (Elt Ideal))
    (x1 : (⟨Cert.ReferenceIdeal.S1152x384, .f32⟩ : BufTy).Contents (Elt Ideal))
    (x2 : (⟨Cert.ReferenceIdeal.S1152, .f32⟩ : BufTy).Contents (Elt Ideal))
    (x3 : (⟨Cert.ReferenceIdeal.S384x384, .f32⟩ : BufTy).Contents (Elt Ideal))
    (x4 : (⟨Cert.ReferenceIdeal.S384, .f32⟩ : BufTy).Contents (Elt Ideal)) :
    Cert.ReferenceIdeal.Read.val_main_v57 (F := Ideal) x0 x1 x2 x3 x4 = Cert.WindowAttention.result x0 x1 x2 x3 x4 := by
  funext j
  obtain ⟨b, o, r, w, rfl⟩ : ∃ (b : Fin 256) (o : Fin 384) (r w : Fin 16), j = ix4 b o r w :=
    ⟨j 0, j 1, j 2, j 3, eq_ix4 j⟩
  rw [v57_apply]
  rfl

end Cert.ReferenceIdeal.RefValue

end
-- ==== Proof.lean ====
/-
  Window attention with unit-normalised queries and keys: a Pallas kernel against its jnp reference, equal as
  functions on the extended reals.

  Both programs project every image of the batch with one [1152, 384] weight matrix and a bias, cut the projection
  into the queries, keys and values of twelve heads, normalise each query and key to unit length (with a floor on the
  length), take the scaled inner products, shift each row of logits by its maximum, soft-max it, clip the weights,
  average the values with them, lay the heads side by side and project with a [384, 384] matrix and a bias. The
  kernel keeps an image as a (channel, token) matrix and walks the batch in blocks of eight images, one image per
  trip of a loop; the reference keeps (token, channel) matrices and transposes. At the exact values nothing of this
  matters: a change of float format is the identity, every sum runs over the same terms in the same order, and only
  the order of the two factors inside the two projections differs, which commutativity of the product on the
  extended reals (valid at the infinities) absorbs. No finiteness of the inputs is used.

  The specification (Proof/Spec.lean) states the common function. The kernel's side: one head of the body read at
  an index (Proof/KernelHead.lean), one trip's stored block (Proof/KernelTrip.lean), what the eight trips leave in
  the output block (Proof/KernelPieces.lean), the blocks tiling the result array and the reshapes around the region
  (Proof/KernelValue.lean). The reference's side: its stages read at an index, from the projection up
  (Proof/RefProj.lean … Proof/RefValue.lean). The three frames are the generated frame runs and the reference's
  generated run; the idealisation rewrote nothing, so `preserves` is trivial.
-/
import proofs.«179321_j18124761989753_1_alg».proof.Defs
import proofs.«179321_j18124761989753_1_alg».proof.Proof.Gen.Kernel
import proofs.«179321_j18124761989753_1_alg».proof.Proof.Gen.Kernel.Skeleton
import proofs.«179321_j18124761989753_1_alg».proof.Proof.Gen.Kernel.Loops
import proofs.«179321_j18124761989753_1_alg».proof.Proof.Gen.Kernel.Launch
import proofs.«179321_j18124761989753_1_alg».proof.Proof.Gen.Kernel.Points
import proofs.«179321_j18124761989753_1_alg».proof.Proof.Gen.Kernel.Frame
import proofs.«179321_j18124761989753_1_alg».proof.Proof.Gen.KernelIdeal
import proofs.«179321_j18124761989753_1_alg».proof.Proof.Gen.KernelIdeal.Skeleton
import proofs.«179321_j18124761989753_1_alg».proof.Proof.Gen.KernelIdeal.Loops
import proofs.«179321_j18124761989753_1_alg».proof.Proof.Gen.KernelIdeal.Launch
import proofs.«179321_j18124761989753_1_alg».proof.Proof.Gen.KernelIdeal.Points
import proofs.«179321_j18124761989753_1_alg».proof.Proof.Gen.KernelIdeal.Frame
import proofs.«179321_j18124761989753_1_alg».proof.Proof.Gen.ReferenceIdeal
import proofs.«179321_j18124761989753_1_alg».proof.Proof.Gen.Pre_finite_inputs
import proofs.«179321_j18124761989753_1_alg».proof.Proof.Gen.ReferenceIdeal.Run
import proofs.«179321_j18124761989753_1_alg».proof.Proof.Gen.ReferenceIdeal.Read
import proofs.«179321_j18124761989753_1_alg».proof.Proof.KernelValue
import proofs.«179321_j18124761989753_1_alg».proof.Proof.RefValue
import Idealize.ShloMosaic.Adequacy
import Idealize.ShloMosaic.Init

noncomputable section

namespace Cert.Proof

open Idealize.ShloMosaic Idealize.SL.Sem Cert.Kernel

/-- The word-level kernel runs and keeps its arguments: the generated frame run. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- At the exact values the kernel's result array ends at the specification of its arguments, and the reference's
    at the same function of arguments that agree. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
